-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x165 : Shape := ⟨2, ![100000, 165]⟩
abbrev S2x1600000 : Shape := ⟨2, ![2, 1600000]⟩
abbrev S128x165 : Shape := ⟨2, ![128, 165]⟩
abbrev S128 : Shape := ⟨1, ![128]⟩
abbrev S128x128 : Shape := ⟨2, ![128, 128]⟩
abbrev S2x128 : Shape := ⟨2, ![2, 128]⟩
abbrev S2 : Shape := ⟨1, ![2]⟩
abbrev S_ : Shape := ⟨0, ![]⟩

class Facts : Prop where
  bcast_S_S100000x165 : S_.BroadcastsInDim S100000x165 (![] : Fin 0 → Fin S100000x165.rank)
  reducesTo_S100000x165_S_d0_1 : S100000x165.ReducesTo [0, 1] S_
  h_S_ : 0 < S_.numel
  bcast_S_S128x165 : S_.BroadcastsInDim S128x165 (![] : Fin 0 → Fin S128x165.rank)
  reducesTo_S128x165_S_d0_1 : S128x165.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg12 : FVec F S2 .f32) (main_v48 : IVec S_ 1) (main_v49 : FVec F S2x128 .f32) (main_v50 : FVec F S2x128 .f32) : IVec S_ 1 :=
  let main_v51 : IVec S2x128 1 := cmpf .olt main_v49 main_v50
  let main_c_19 : IVec S_ 1 := constantI S_ 1 1#1
  let main_v52 : IVec S_ 1 := (fun x v => Host.reduce IntOp.andi x v reducesTo_S2x128_S_d0_1 h_S_) main_v51 main_c_19
  let main_v53 : IVec S_ 1 := andi main_v48 main_v52
  let main_v54 : FVec F S2 .f32 := Host.absf main_arg12
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  main_v58

def fn_part2 {F : FTy → Type} [FloatOps F] (main_arg8 : FVec F S128x128 .f32) (main_arg9 : FVec F S128 .f32) (main_arg10 : FVec F S128x128 .f32) (main_arg11 : FVec F S2x128 .f32) (main_arg12 : FVec F S2 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S2x128 .f32 := Host.absf main_arg11
  let main_cst_18 : FVec F S_ .f32 := constant S_ .f32 0x7F800000#32
  let main_v50 : FVec F S2x128 .f32 := broadcastInDim S2x128 ![] bcast_S_S2x128 main_cst_18
  fn_part3 (F := F) main_arg12 main_v48 main_v49 main_v50

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S2x128 .f32) (main_arg12 : FVec F S2 .f32) (main_v13 : IVec S_ 1) (main_v16 : IVec S128x165 1) : IVec S_ 1 :=
  let main_c_5 : IVec S_ 1 := constantI S_ 1 1#1
  let main_v17 : IVec S_ 1 := (fun x v => Host.reduce IntOp.andi x v reducesTo_S128x165_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x165 .f32) (main_arg1 : IVec S2x1600000 32) (main_arg2 : FVec F S128x165 .f32) (main_arg3 : FVec F S128 .f32) (main_arg4 : FVec F S128x165 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S2x128 .f32) (main_arg12 : FVec F S2 .f32) : IVec S_ 1 :=
  let main_v0 : FVec F S100000x165 .f32 := Host.absf main_arg0
  let main_cst : FVec F S_ .f32 := constant S_ .f32 0x7F800000#32
  let main_v1 : FVec F S100000x165 .f32 := broadcastInDim S100000x165 ![] bcast_S_S100000x165 main_cst
  let main_v2 : IVec S100000x165 1 := cmpf .olt main_v0 main_v1
  let main_c : IVec S_ 1 := constantI S_ 1 1#1
  let main_v3 : IVec S_ 1 := (fun x v => Host.reduce IntOp.andi x v reducesTo_S100000x165_S_d0_1 h_S_) main_v2 main_c
  let main_v4 : FVec F S128x165 .f32 := Host.absf main_arg2
  let main_cst_0 : FVec F S_ .f32 := constant S_ .f32 0x7F800000#32
  let main_v5 : FVec F S128x165 .f32 := broadcastInDim S128x165 ![] bcast_S_S128x165 main_cst_0
  let main_v6 : IVec S128x165 1 := cmpf .olt main_v4 main_v5
  let main_c_1 : IVec S_ 1 := constantI S_ 1 1#1
  let main_v7 : IVec S_ 1 := (fun x v => Host.reduce IntOp.andi x v reducesTo_S128x165_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x165 .f32 := Host.absf main_arg4
  let main_cst_4 : FVec F S_ .f32 := constant S_ .f32 0x7F800000#32
  let main_v15 : FVec F S128x165 .f32 := broadcastInDim S128x165 ![] bcast_S_S128x165 main_cst_4
  let main_v16 : IVec S128x165 1 := cmpf .olt main_v14 main_v15
  fn_part1 (F := F) main_arg5 main_arg6 main_arg7 main_arg8 main_arg9 main_arg10 main_arg11 main_arg12 main_v13 main_v16
-- ==== Kernel.lean ====
abbrev S100000x165 : Shape := ⟨2, ![100000, 165]⟩
abbrev S2x1600000 : Shape := ⟨2, ![2, 1600000]⟩
abbrev S128x165 : Shape := ⟨2, ![128, 165]⟩
abbrev S128 : Shape := ⟨1, ![128]⟩
abbrev S128x128 : Shape := ⟨2, ![128, 128]⟩
abbrev S2x128 : Shape := ⟨2, ![2, 128]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x165 : Shape := ⟨2, ![1600000, 165]⟩
abbrev S165x128 : Shape := ⟨2, ![165, 128]⟩
abbrev S1x128 : Shape := ⟨2, ![1, 128]⟩
abbrev S100000x128 : Shape := ⟨2, ![100000, 128]⟩
abbrev S4000x165 : Shape := ⟨2, ![4000, 165]⟩
abbrev S4000x1 : Shape := ⟨2, ![4000, 1]⟩
abbrev S4000x128 : Shape := ⟨2, ![4000, 128]⟩
abbrev S1600000x128 : Shape := ⟨2, ![1600000, 128]⟩
abbrev S128x2 : Shape := ⟨2, ![128, 2]⟩
abbrev S1x2 : Shape := ⟨2, ![1, 2]⟩
abbrev S100000x2 : Shape := ⟨2, ![100000, 2]⟩
abbrev S4000x2 : Shape := ⟨2, ![4000, 2]⟩

abbrev nBuf : Space → Nat
  | .hbm => 82
  | .vmem => 35
  | .smem => 0
  | _ => 0

abbrev bufTy : (tb : Table) → Fin (tcTables nBuf tb) → BufTy
  | .hbm, ⟨0, _⟩ => ⟨S100000x165, .f32⟩
  | .hbm, ⟨1, _⟩ => ⟨S2x1600000, .i32⟩
  | .hbm, ⟨2, _⟩ => ⟨S128x165, .f32⟩
  | .hbm, ⟨3, _⟩ => ⟨S128, .f32⟩
  | .hbm, ⟨4, _⟩ => ⟨S128x165, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S2x128, .f32⟩
  | .hbm, ⟨12, _⟩ => ⟨S2, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000x1, .f32⟩
  | .hbm, ⟨19, _⟩ => ⟨S_, .f32⟩
  | .hbm, ⟨20, _⟩ => ⟨S100000x1, .f32⟩
  | .hbm, ⟨21, _⟩ => ⟨S1600000x1, .i32⟩
  | .hbm, ⟨22, _⟩ => ⟨S100000x1, .f32⟩
  | .hbm, ⟨23, _⟩ => ⟨S_, .f32⟩
  | .hbm, ⟨24, _⟩ => ⟨S100000x1, .f32⟩
  | .hbm, ⟨25, _⟩ => ⟨S100000x1, .f32⟩
  | .hbm, ⟨26, _⟩ => ⟨S_, .f32⟩
  | .hbm, ⟨27, _⟩ => ⟨S100000x1, .f32⟩
  | .hbm, ⟨28, _⟩ => ⟨S100000x1, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x165, .f32⟩
  | .hbm, ⟨38, _⟩ => ⟨S_, .f32⟩
  | .hbm, ⟨39, _⟩ => ⟨S100000x165, .f32⟩
  | .hbm, ⟨40, _⟩ => ⟨S1600000x1, .i32⟩
  | .hbm, ⟨41, _⟩ => ⟨S100000x165, .f32⟩
  | .hbm, ⟨42, _⟩ => ⟨S165x128, .f32⟩
  | .hbm, ⟨43, _⟩ => ⟨S165x128, .f32⟩
  | .hbm, ⟨44, _⟩ => ⟨S1x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S128x128, .f32⟩
  | .hbm, ⟨60, _⟩ => ⟨S128x128, .f32⟩
  | .hbm, ⟨61, _⟩ => ⟨S1x128, .f32⟩
  | .hbm, ⟨62, _⟩ => ⟨S100000x128, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x128, .f32⟩
  | .hbm, ⟨72, _⟩ => ⟨S_, .f32⟩
  | .hbm, ⟨73, _⟩ => ⟨S100000x128, .f32⟩
  | .hbm, ⟨74, _⟩ => ⟨S1600000x1, .i32⟩
  | .hbm, ⟨75, _⟩ => ⟨S100000x128, .f32⟩
  | .hbm, ⟨76, _⟩ => ⟨S128x128, .f32⟩
  | .hbm, ⟨77, _⟩ => ⟨S128x128, .f32⟩
  | .hbm, ⟨78, _⟩ => ⟨S1x128, .f32⟩
  | .hbm, ⟨79, _⟩ => ⟨S128x2, .f32⟩
  | .hbm, ⟨80, _⟩ => ⟨S1x2, .f32⟩
  | .hbm, ⟨81, _⟩ => ⟨S100000x2, .f32⟩
  | .local _ .vmem, ⟨0, _⟩ => ⟨S4000x165, .f32⟩
  | .local _ .vmem, ⟨1, _⟩ => ⟨S4000x165, .f32⟩
  | .local _ .vmem, ⟨2, _⟩ => ⟨S4000x165, .f32⟩
  | .local _ .vmem, ⟨3, _⟩ => ⟨S4000x165, .f32⟩
  | .local _ .vmem, ⟨4, _⟩ => ⟨S4000x1, .f32⟩
  | .local _ .vmem, ⟨5, _⟩ => ⟨S4000x1, .f32⟩
  | .local _ .vmem, ⟨6, _⟩ => ⟨S165x128, .f32⟩
  | .local _ .vmem, ⟨7, _⟩ => ⟨S1x128, .f32⟩
  | .local _ .vmem, ⟨8, _⟩ => ⟨S165x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x1, .f32⟩
  | .local _ .vmem, ⟨16, _⟩ => ⟨S4000x1, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S4000x1, .f32⟩
  | .local _ .vmem, ⟨27, _⟩ => ⟨S4000x1, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S128x2, .f32⟩
  | .local _ .vmem, ⟨32, _⟩ => ⟨S1x2, .f32⟩
  | .local _ .vmem, ⟨33, _⟩ => ⟨S4000x2, .f32⟩
  | .local _ .vmem, ⟨34, _⟩ => ⟨S4000x2, .f32⟩
  | _, _ => ⟨S100000x165, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_8 : Ref sig .tc := ⟨.hbm, 63, rfl⟩
abbrev main_v40 : Ref sig .tc := ⟨.hbm, 64, rfl⟩
abbrev main_v41 : Ref sig .tc := ⟨.hbm, 65, rfl⟩
abbrev main_c_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg8_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem8_1 : DmaSem sig := 34

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x165 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x165 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S165x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S165x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x2 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x2 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S4000x2 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000x165 : S_.BroadcastsInDim S100000x165 (![] : Fin 0 → Fin S100000x165.rank)
  transposes_S128x165_S165x128_1_0 : S128x165.Transposes [1, 0] S165x128
  shapeCasts_S128_S1x128 : S128.ShapeCasts S1x128
  inb_S4000x165_S4000x165_0_0 : ∀ a, (![0, 0] : Fin 2 → Nat) a + S4000x165.size a ≤ S4000x165.size a
  h_S4000x165 : 0 < S4000x165.numel
  shapeCasts_S4000x165_S4000x165 : S4000x165.ShapeCasts S4000x165
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x165 : S4000x1.Broadcasts S4000x165
  bitsLt_bf16_f32 : FTy.bits .bf16 < FTy.bits .f32
  inb_S165x128_S165x128_0_0 : ∀ a, (![0, 0] : Fin 2 → Nat) a + S165x128.size a ≤ S165x128.size a
  h_S165x128 : 0 < S165x128.numel
  shapeCasts_S165x128_S165x128 : S165x128.ShapeCasts S165x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  bcast_S_S100000x128 : S_.BroadcastsInDim S100000x128 (![] : Fin 0 → Fin S100000x128.rank)
  transposes_S128x128_S128x128_1_0 : S128x128.Transposes [1, 0] S128x128
  shapeCasts_S4000x128_S4000x128 : S4000x128.ShapeCasts S4000x128
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S2x128_S128x2_1_0 : S2x128.Transposes [1, 0] S128x2
  shapeCasts_S2_S1x2 : S2.ShapeCasts S1x2
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4000x2 : S1x2.Broadcasts S4000x2
  inb_S4000x2_S4000x2_0_0 : ∀ a, (![0, 0] : Fin 2 → Nat) a + S4000x2.size a ≤ S4000x2.size a
  h_S4000x2 : 0 < S4000x2.numel
  scatter_S100000x1_S1600000x1_S1600000x1_1_0_0_1_wf : ScatterDims.WF S100000x1 S1600000x1 S1600000x1 [1] [0] [0] 1
  gather_S100000x165_S1600000x1_S1600000x165_1_0_n_n_0_1_1165_wf : GatherDims.WF S100000x165 S1600000x1 S1600000x165 [1] [0] [] [0] [] 1 ![1, 165]
  scatter_S100000x165_S1600000x1_S1600000x165_1_0_0_1_wf : ScatterDims.WF S100000x165 S1600000x1 S1600000x165 [1] [0] [0] 1
  dot_S4000x165_S165x128_S4000x128_1_0_0_1_n_n_wf : DotDims.WF S4000x165 S165x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x2_S4000x2_1_0_0_1_n_n_wf : DotDims.WF S4000x128 S128x2 S4000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x165.size a ≤ S100000x165.size a
  hwx0_0 : ∀ i : grid0.Coords, EltTy.bits .f32 = 32 ∨ (Rect.block (s := S100000x165) S4000x165.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x165.size a ≤ S100000x165.size a
  hwx0_1 : ∀ i : grid0.Coords, EltTy.bits .f32 = 32 ∨ (Rect.block (s := S100000x165) S4000x165.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S165x128.size a ≤ S165x128.size a
  hwx0_3 : ∀ i : grid0.Coords, EltTy.bits .f32 = 32 ∨ (Rect.block (s := S165x128) S165x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S165x128.size a ≤ S165x128.size a
  hwx0_5 : ∀ i : grid0.Coords, EltTy.bits .f32 = 32 ∨ (Rect.block (s := S165x128) S165x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x2.size a ≤ S128x2.size a
  hwx2_6 : ∀ i : grid2.Coords, EltTy.bits .f32 = 32 ∨ (Rect.block (s := S128x2) S128x2.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x2.size a ≤ S1x2.size a
  hwx2_7 : ∀ i : grid2.Coords, EltTy.bits .f32 = 32 ∨ (Rect.block (s := S1x2) S1x2.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S4000x2.size a ≤ S100000x2.size a
  hwx2_8 : ∀ i : grid2.Coords, EltTy.bits .f32 = 32 ∨ (Rect.block (s := S100000x2) S4000x2.size (cc2_transform_8 i) (hinb2_8 i)).WholeWords (EltTy.packing .f32)

variable [Facts₀]

def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x165_S1600000x1_S1600000x165_1_0_n_n_0_1_1165 : GatherDims S100000x165 S1600000x1 S1600000x165 where
  offsetDims := [1]
  collapsedSliceDims := [0]
  operandBatchingDims := []
  startIndicesBatchingDims := []
  startIndexMap := [0]
  indexVectorDim := 1
  sliceSizes := ![1, 165]
  wf := gather_S100000x165_S1600000x1_S1600000x165_1_0_n_n_0_1_1165_wf
def scatter_S100000x165_S1600000x1_S1600000x165_1_0_0_1 : ScatterDims S100000x165 S1600000x1 S1600000x165 where
  updateWindowDims := [1]
  insertedWindowDims := [0]
  scatterDimsToOperandDims := [0]
  indexVectorDim := 1
  wf := scatter_S100000x165_S1600000x1_S1600000x165_1_0_0_1_wf
def dot_S4000x165_S165x128_S4000x128_1_0_0_1_n_n : DotDims S4000x165 S165x128 S4000x128 where
  lhsContracting := [1]
  rhsContracting := [0]
  lhsNonContracting := [0]
  rhsNonContracting := [1]
  lhsBatch := []
  rhsBatch := []
  wf := dot_S4000x165_S165x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x2_S4000x2_1_0_0_1_n_n : DotDims S4000x128 S128x2 S4000x2 where
  lhsContracting := [1]
  rhsContracting := [0]
  lhsNonContracting := [0]
  rhsNonContracting := [1]
  lhsBatch := []
  rhsBatch := []
  wf := dot_S4000x128_S128x2_S4000x2_1_0_0_1_n_n_wf

abbrev win0_0 : Pipeline.Window sig grid0 :=
  Pipeline.Window.ofSpec (Memref.whole main_v21) S4000x165.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x165.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S165x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S165x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v35) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v49) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v50) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v52) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v53) S128x2.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v54) S1x2.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v55) S4000x2.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x165 : Shape := ⟨2, ![100000, 165]⟩
abbrev S2x1600000 : Shape := ⟨2, ![2, 1600000]⟩
abbrev S128x165 : Shape := ⟨2, ![128, 165]⟩
abbrev S128 : Shape := ⟨1, ![128]⟩
abbrev S128x128 : Shape := ⟨2, ![128, 128]⟩
abbrev S2x128 : Shape := ⟨2, ![2, 128]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x165 : Shape := ⟨2, ![1600000, 165]⟩
abbrev S100000x1 : Shape := ⟨2, ![100000, 1]⟩
abbrev S165x128 : Shape := ⟨2, ![165, 128]⟩
abbrev S100000x128 : Shape := ⟨2, ![100000, 128]⟩
abbrev S1x128 : Shape := ⟨2, ![1, 128]⟩
abbrev S1600000x128 : Shape := ⟨2, ![1600000, 128]⟩
abbrev S128x2 : Shape := ⟨2, ![128, 2]⟩
abbrev S100000x2 : Shape := ⟨2, ![100000, 2]⟩
abbrev S1x2 : Shape := ⟨2, ![1, 2]⟩

abbrev nBuf : Space → Nat
  | .hbm => 124
  | .vmem => 0
  | .smem => 0
  | _ => 0

abbrev bufTy : (tb : Table) → Fin (tcTables nBuf tb) → BufTy
  | .hbm, ⟨0, _⟩ => ⟨S100000x165, .f32⟩
  | .hbm, ⟨1, _⟩ => ⟨S2x1600000, .i32⟩
  | .hbm, ⟨2, _⟩ => ⟨S128x165, .f32⟩
  | .hbm, ⟨3, _⟩ => ⟨S128, .f32⟩
  | .hbm, ⟨4, _⟩ => ⟨S128x165, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S2x128, .f32⟩
  | .hbm, ⟨12, _⟩ => ⟨S2, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x165, .f32⟩
  | .hbm, ⟨26, _⟩ => ⟨S_, .f32⟩
  | .hbm, ⟨27, _⟩ => ⟨S100000x165, .f32⟩
  | .hbm, ⟨28, _⟩ => ⟨S1600000x1, .i32⟩
  | .hbm, ⟨29, _⟩ => ⟨S100000x165, .f32⟩
  | .hbm, ⟨30, _⟩ => ⟨S_, .f32⟩
  | .hbm, ⟨31, _⟩ => ⟨S1600000x1, .f32⟩
  | .hbm, ⟨32, _⟩ => ⟨S_, .f32⟩
  | .hbm, ⟨33, _⟩ => ⟨S100000x1, .f32⟩
  | .hbm, ⟨34, _⟩ => ⟨S1600000x1, .i32⟩
  | .hbm, ⟨35, _⟩ => ⟨S100000x1, .f32⟩
  | .hbm, ⟨36, _⟩ => ⟨S_, .f32⟩
  | .hbm, ⟨37, _⟩ => ⟨S100000x1, .f32⟩
  | .hbm, ⟨38, _⟩ => ⟨S100000x1, .f32⟩
  | .hbm, ⟨39, _⟩ => ⟨S100000x165, .f32⟩
  | .hbm, ⟨40, _⟩ => ⟨S100000x165, .f32⟩
  | .hbm, ⟨41, _⟩ => ⟨S165x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S165x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000x128, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S_, .f32⟩
  | .hbm, ⟨66, _⟩ => ⟨S1600000x1, .f32⟩
  | .hbm, ⟨67, _⟩ => ⟨S_, .f32⟩
  | .hbm, ⟨68, _⟩ => ⟨S100000x1, .f32⟩
  | .hbm, ⟨69, _⟩ => ⟨S1600000x1, .i32⟩
  | .hbm, ⟨70, _⟩ => ⟨S100000x1, .f32⟩
  | .hbm, ⟨71, _⟩ => ⟨S_, .f32⟩
  | .hbm, ⟨72, _⟩ => ⟨S100000x1, .f32⟩
  | .hbm, ⟨73, _⟩ => ⟨S100000x1, .f32⟩
  | .hbm, ⟨74, _⟩ => ⟨S100000x128, .f32⟩
  | .hbm, ⟨75, _⟩ => ⟨S100000x128, .f32⟩
  | .hbm, ⟨76, _⟩ => ⟨S128x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S128x128, .f32⟩
  | .hbm, ⟨82, _⟩ => ⟨S100000x128, .f32⟩
  | .hbm, ⟨83, _⟩ => ⟨S100000x128, .f32⟩
  | .hbm, ⟨84, _⟩ => ⟨S_, .f32⟩
  | .hbm, ⟨85, _⟩ => ⟨S100000x128, .f32⟩
  | .hbm, ⟨86, _⟩ => ⟨S100000x128, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x128, .f32⟩
  | .hbm, ⟨96, _⟩ => ⟨S_, .f32⟩
  | .hbm, ⟨97, _⟩ => ⟨S100000x128, .f32⟩
  | .hbm, ⟨98, _⟩ => ⟨S1600000x1, .i32⟩
  | .hbm, ⟨99, _⟩ => ⟨S100000x128, .f32⟩
  | .hbm, ⟨100, _⟩ => ⟨S_, .f32⟩
  | .hbm, ⟨101, _⟩ => ⟨S1600000x1, .f32⟩
  | .hbm, ⟨102, _⟩ => ⟨S_, .f32⟩
  | .hbm, ⟨103, _⟩ => ⟨S100000x1, .f32⟩
  | .hbm, ⟨104, _⟩ => ⟨S1600000x1, .i32⟩
  | .hbm, ⟨105, _⟩ => ⟨S100000x1, .f32⟩
  | .hbm, ⟨106, _⟩ => ⟨S_, .f32⟩
  | .hbm, ⟨107, _⟩ => ⟨S100000x1, .f32⟩
  | .hbm, ⟨108, _⟩ => ⟨S100000x1, .f32⟩
  | .hbm, ⟨109, _⟩ => ⟨S100000x128, .f32⟩
  | .hbm, ⟨110, _⟩ => ⟨S100000x128, .f32⟩
  | .hbm, ⟨111, _⟩ => ⟨S128x128, .f32⟩
  | .hbm, ⟨112, _⟩ => ⟨S100000x128, .f32⟩
  | .hbm, ⟨113, _⟩ => ⟨S1x128, .f32⟩
  | .hbm, ⟨114, _⟩ => ⟨S100000x128, .f32⟩
  | .hbm, ⟨115, _⟩ => ⟨S100000x128, .f32⟩
  | .hbm, ⟨116, _⟩ => ⟨S128x128, .f32⟩
  | .hbm, ⟨117, _⟩ => ⟨S100000x128, .f32⟩
  | .hbm, ⟨118, _⟩ => ⟨S100000x128, .f32⟩
  | .hbm, ⟨119, _⟩ => ⟨S128x2, .f32⟩
  | .hbm, ⟨120, _⟩ => ⟨S100000x2, .f32⟩
  | .hbm, ⟨121, _⟩ => ⟨S1x2, .f32⟩
  | .hbm, ⟨122, _⟩ => ⟨S100000x2, .f32⟩
  | .hbm, ⟨123, _⟩ => ⟨S100000x2, .f32⟩
  | _, _ => ⟨S100000x165, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call0_cst : Ref sig .tc := ⟨.hbm, 49, rfl⟩
abbrev main_call0_v0 : Ref sig .tc := ⟨.hbm, 50, rfl⟩
abbrev main_v30 : Ref sig .tc := ⟨.hbm, 51, rfl⟩
abbrev main_c_4 : Ref sig .tc := ⟨.hbm, 52, rfl⟩
abbrev main_v31 : Ref sig .tc := ⟨.hbm, 53, rfl⟩
abbrev main_v32 : Ref sig .tc := ⟨.hbm, 54, rfl⟩
abbrev main_c_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_6 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_7 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_9 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_call1_cst : Ref sig .tc := ⟨.hbm, 84, rfl⟩
abbrev main_call1_v0 : Ref sig .tc := ⟨.hbm, 85, rfl⟩
abbrev main_v57 : Ref sig .tc := ⟨.hbm, 86, rfl⟩
abbrev main_c_10 : Ref sig .tc := ⟨.hbm, 87, rfl⟩
abbrev main_v58 : Ref sig .tc := ⟨.hbm, 88, rfl⟩
abbrev main_v59 : Ref sig .tc := ⟨.hbm, 89, rfl⟩
abbrev main_c_11 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_12 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_13 : Ref sig .tc := ⟨.hbm, 100, rfl⟩
abbrev main_v68 : Ref sig .tc := ⟨.hbm, 101, rfl⟩
abbrev main_cst_14 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_15 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x165 : S_.BroadcastsInDim S100000x165 (![] : Fin 0 → Fin S100000x165.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x165_0_1 : S100000x1.BroadcastsInDim S100000x165 (![0, 1] : Fin 2 → Fin S100000x165.rank)
  transposes_S128x165_S165x128_1_0 : S128x165.Transposes [1, 0] S165x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  transposes_S2x128_S128x2_1_0 : S2x128.Transposes [1, 0] S128x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x165_S1600000x1_S1600000x165_1_0_n_n_0_1_1165_wf : GatherDims.WF S100000x165 S1600000x1 S1600000x165 [1] [0] [] [0] [] 1 ![1, 165]
  scatter_S100000x165_S1600000x1_S1600000x165_1_0_0_1_wf : ScatterDims.WF S100000x165 S1600000x1 S1600000x165 [1] [0] [0] 1
  scatter_S100000x1_S1600000x1_S1600000x1_1_0_0_1_wf : ScatterDims.WF S100000x1 S1600000x1 S1600000x1 [1] [0] [0] 1
  dot_S100000x165_S165x128_S100000x128_1_0_0_1_n_n_wf : DotDims.WF S100000x165 S165x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x2_S100000x2_1_0_0_1_n_n_wf : DotDims.WF S100000x128 S128x2 S100000x2 [1] [0] [0] [1] [] []

variable [Facts₀]

def gather_S100000x165_S1600000x1_S1600000x165_1_0_n_n_0_1_1165 : GatherDims S100000x165 S1600000x1 S1600000x165 where
  offsetDims := [1]
  collapsedSliceDims := [0]
  operandBatchingDims := []
  startIndicesBatchingDims := []
  startIndexMap := [0]
  indexVectorDim := 1
  sliceSizes := ![1, 165]
  wf := gather_S100000x165_S1600000x1_S1600000x165_1_0_n_n_0_1_1165_wf
def scatter_S100000x165_S1600000x1_S1600000x165_1_0_0_1 : ScatterDims S100000x165 S1600000x1 S1600000x165 where
  updateWindowDims := [1]
  insertedWindowDims := [0]
  scatterDimsToOperandDims := [0]
  indexVectorDim := 1
  wf := scatter_S100000x165_S1600000x1_S1600000x165_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x165_S165x128_S100000x128_1_0_0_1_n_n : DotDims S100000x165 S165x128 S100000x128 where
  lhsContracting := [1]
  rhsContracting := [0]
  lhsNonContracting := [0]
  rhsNonContracting := [1]
  lhsBatch := []
  rhsBatch := []
  wf := dot_S100000x165_S165x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.KHost.lean ====
/-
  The host side of the idealized kernel's program: what the arrays entering each of its three regions hold, as
  functions of the launch memory.

  Between the regions the program runs plain array operations.  The edge list gives every edge a source row and a
  destination row.  The neighbour sum of a feature array h is the scatter-add, over the edges, of h's row at the
  edge's source into the row of the edge's destination; the in-degree count is the scatter-add of ones; the
  per-node factor is one over the count clamped below by one.  These are kept as named functions of the arrays
  they read and are never opened: both programs apply the same ones.
-/
import proofs.«104166_j58042188038363_2_alg».proof.Proof.Gen.KernelIdeal.Frame
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

variable {F : FTy → Type} [FloatOps F]

/-! ## The shared host functions, in this program's spelling -/

/-- Row 0 of the edge list: each edge's source node. -/
def src (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000
/-- Row 1 of the edge list: each edge's destination node. -/
def dst (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000
/-- The gather's index column: a negative source counted from the end, then given a trailing unit axis. -/
def srcIx (s : (⟨S1600000, .i32⟩ : BufTy).Contents (Elt F)) : (⟨S1600000x1, .i32⟩ : BufTy).Contents (Elt F) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)
/-- The scatter's index column: the destinations with a trailing unit axis. -/
def dstIx (d : (⟨S1600000, .i32⟩ : BufTy).Contents (Elt F)) : (⟨S1600000x1, .i32⟩ : BufTy).Contents (Elt F) :=
  broadcastInDim S1600000x1 ![0] bcast_S1600000_S1600000x1_0 d
/-- The in-degree count of every node, as a column. -/
def count (d : (⟨S1600000, .i32⟩ : BufTy).Contents (Elt F)) : (⟨S100000x1, .f32⟩ : BufTy).Contents (Elt F) :=
  Host.scatterAdd scatter_S100000x1_S1600000x1_S1600000x1_1_0_0_1
    (broadcastInDim S100000x1 ![] bcast_S_S100000x1 (constant S_ .f32 0x00000000#32)) (dstIx d)
    (broadcastInDim S1600000x1 ![] bcast_S_S1600000x1 (constant S_ .f32 0x3F800000#32))
/-- The count clamped below by one. -/
def clamped (d : (⟨S1600000, .i32⟩ : BufTy).Contents (Elt F)) : (⟨S100000x1, .f32⟩ : BufTy).Contents (Elt F) :=
  maximumf (count d) (broadcastInDim S100000x1 ![] bcast_S_S100000x1 (constant S_ .f32 0x3F800000#32))
/-- One over the clamped count. -/
def inv (d : (⟨S1600000, .i32⟩ : BufTy).Contents (Elt F)) : (⟨S100000x1, .f32⟩ : BufTy).Contents (Elt F) :=
  Host.divf (broadcastInDim S100000x1 ![] bcast_S_S100000x1 (constant S_ .f32 0x3F800000#32)) (clamped d)
/-- The neighbour sum of a 165-column feature array. -/
def agg165 (h : (⟨S100000x165, .f32⟩ : BufTy).Contents (Elt F)) (s d : (⟨S1600000, .i32⟩ : BufTy).Contents (Elt F)) :
    (⟨S100000x165, .f32⟩ : BufTy).Contents (Elt F) :=
  Host.scatterAdd scatter_S100000x165_S1600000x1_S1600000x165_1_0_0_1
    (broadcastInDim S100000x165 ![] bcast_S_S100000x165 (constant S_ .f32 0x00000000#32)) (dstIx d)
    (Host.gather gather_S100000x165_S1600000x1_S1600000x165_1_0_n_n_0_1_1165 h (srcIx s))
/-- The neighbour sum of a 128-column feature array. -/
def agg128 (h : (⟨S100000x128, .f32⟩ : BufTy).Contents (Elt F)) (s d : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32)) (dstIx d)
    (Host.gather gather_S100000x128_S1600000x1_S1600000x128_1_0_n_n_0_1_1128 h (srcIx s))
/-- A weight matrix [128,165] transposed. -/
def tr165 (w : (⟨S128x165, .f32⟩ : BufTy).Contents (Elt F)) : (⟨S165x128, .f32⟩ : BufTy).Contents (Elt F) :=
  transpose S165x128 [1, 0] w transposes_S128x165_S165x128_1_0
/-- A weight matrix [128,128] transposed. -/
def tr128 (w : (⟨S128x128, .f32⟩ : BufTy).Contents (Elt F)) : (⟨S128x128, .f32⟩ : BufTy).Contents (Elt F) :=
  transpose S128x128 [1, 0] w transposes_S128x128_S128x128_1_0
/-- The output weights [2,128] transposed. -/
def trOut (w : (⟨S2x128, .f32⟩ : BufTy).Contents (Elt F)) : (⟨S128x2, .f32⟩ : BufTy).Contents (Elt F) :=
  transpose S128x2 [1, 0] w transposes_S2x128_S128x2_1_0
/-- A bias vector [128] as one row. -/
def row128 (b : (⟨S128, .f32⟩ : BufTy).Contents (Elt F)) : (⟨S1x128, .f32⟩ : BufTy).Contents (Elt F) :=
  shapeCast _ b shapeCasts_S128_S1x128
/-- The output bias [2] as one row. -/
def row2 (b : (⟨S2, .f32⟩ : BufTy).Contents (Elt F)) : (⟨S1x2, .f32⟩ : BufTy).Contents (Elt F) :=
  shapeCast _ b shapeCasts_S2_S1x2

variable (m : (ℓ : Loc nD τ sig) → Buf (Elt F) ℓ) (ρ : Dev nD → PrngReg)

/-! ## Entering region 0: the first stretch of host operations over the launch memory -/

theorem W1_v1 (c : Dev nD) : W1 m ρ c (Proc.devRef .tc main_v1) = src (m ((c : Thread nD τ).loc main_arg1)) := by
  show StableHlo.after hostOps0 (W0 m ρ c) (Proc.devRef .tc main_v1) = _
  after_results_simp <;> rfl
theorem W1_v3 (c : Dev nD) : W1 m ρ c (Proc.devRef .tc main_v3) = dst (m ((c : Thread nD τ).loc main_arg1)) := by
  show StableHlo.after hostOps0 (W0 m ρ c) (Proc.devRef .tc main_v3) = _
  after_results_simp <;> rfl
theorem W1_v11 (c : Dev nD) : W1 m ρ c (Proc.devRef .tc main_v11) = inv (dst (m ((c : Thread nD τ).loc main_arg1))) := by
  show StableHlo.after hostOps0 (W0 m ρ c) (Proc.devRef .tc main_v11) = _
  after_results_simp <;> rfl
theorem W1_v21 (c : Dev nD) : W1 m ρ c (Proc.devRef .tc main_v21)
    = agg165 (m ((c : Thread nD τ).loc main_arg0)) (src (m ((c : Thread nD τ).loc main_arg1))) (dst (m ((c : Thread nD τ).loc main_arg1))) := by
  show StableHlo.after hostOps0 (W0 m ρ c) (Proc.devRef .tc main_v21) = _
  after_results_simp <;> rfl
theorem W1_v22 (c : Dev nD) : W1 m ρ c (Proc.devRef .tc main_v22) = tr165 (m ((c : Thread nD τ).loc main_arg2)) := by
  show StableHlo.after hostOps0 (W0 m ρ c) (Proc.devRef .tc main_v22) = _
  after_results_simp <;> rfl
theorem W1_v23 (c : Dev nD) : W1 m ρ c (Proc.devRef .tc main_v23) = tr165 (m ((c : Thread nD τ).loc main_arg4)) := by
  show StableHlo.after hostOps0 (W0 m ρ c) (Proc.devRef .tc main_v23) = _
  after_results_simp <;> rfl
theorem W1_v24 (c : Dev nD) : W1 m ρ c (Proc.devRef .tc main_v24) = row128 (m ((c : Thread nD τ).loc main_arg3)) := by
  show StableHlo.after hostOps0 (W0 m ρ c) (Proc.devRef .tc main_v24) = _
  after_results_simp <;> rfl
theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results_simp <;> rfl
theorem W1_arg6 (c : Dev nD) : W1 m ρ c (Proc.devRef .tc main_arg6) = m ((c : Thread nD τ).loc main_arg6) := by
  show StableHlo.after hostOps0 (W0 m ρ c) (Proc.devRef .tc main_arg6) = _
  after_results_simp <;> rfl
theorem W1_arg7 (c : Dev nD) : W1 m ρ c (Proc.devRef .tc main_arg7) = m ((c : Thread nD τ).loc main_arg7) := by
  show StableHlo.after hostOps0 (W0 m ρ c) (Proc.devRef .tc main_arg7) = _
  after_results_simp <;> rfl
theorem W1_arg8 (c : Dev nD) : W1 m ρ c (Proc.devRef .tc main_arg8) = m ((c : Thread nD τ).loc main_arg8) := by
  show StableHlo.after hostOps0 (W0 m ρ c) (Proc.devRef .tc main_arg8) = _
  after_results_simp <;> rfl
theorem W1_arg9 (c : Dev nD) : W1 m ρ c (Proc.devRef .tc main_arg9) = m ((c : Thread nD τ).loc main_arg9) := by
  show StableHlo.after hostOps0 (W0 m ρ c) (Proc.devRef .tc main_arg9) = _
  after_results_simp <;> rfl
theorem W1_arg10 (c : Dev nD) : W1 m ρ c (Proc.devRef .tc main_arg10) = m ((c : Thread nD τ).loc main_arg10) := by
  show StableHlo.after hostOps0 (W0 m ρ c) (Proc.devRef .tc main_arg10) = _
  after_results_simp <;> rfl
theorem W1_arg11 (c : Dev nD) : W1 m ρ c (Proc.devRef .tc main_arg11) = m ((c : Thread nD τ).loc main_arg11) := by
  show StableHlo.after hostOps0 (W0 m ρ c) (Proc.devRef .tc main_arg11) = _
  after_results_simp <;> rfl
theorem W1_arg12 (c : Dev nD) : W1 m ρ c (Proc.devRef .tc main_arg12) = m ((c : Thread nD τ).loc main_arg12) := by
  show StableHlo.after hostOps0 (W0 m ρ c) (Proc.devRef .tc main_arg12) = _
  after_results_simp <;> rfl

/-! ## Leaving region 0: its output array holds what its write-backs leave, every other buffer what it held -/

theorem W2_v25 (c : Dev nD) : W2 m ρ c (Proc.devRef .tc main_v25) = (dat0 (V1 m ρ) c).arrAt 6 cfg0.N := W2_arr m ρ c 6
theorem W2_v1 (c : Dev nD) : W2 m ρ c (Proc.devRef .tc main_v1) = src (m ((c : Thread nD τ).loc main_arg1)) :=
  (W2_of_ne m ρ c main_v1 (by decide)).trans (W1_v1 m ρ c)
theorem W2_v3 (c : Dev nD) : W2 m ρ c (Proc.devRef .tc main_v3) = dst (m ((c : Thread nD τ).loc main_arg1)) :=
  (W2_of_ne m ρ c main_v3 (by decide)).trans (W1_v3 m ρ c)
theorem W2_v11 (c : Dev nD) : W2 m ρ c (Proc.devRef .tc main_v11) = inv (dst (m ((c : Thread nD τ).loc main_arg1))) :=
  ((W2_arr m ρ c 2).trans (((dat0 (V1 m ρ) c).arrAt_in 2 rfl _).trans (A_eq0 (V1 m ρ) c 2))).trans (W1_v11 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W2_arg11 (c : Dev nD) : W2 m ρ c (Proc.devRef .tc main_arg11) = m ((c : Thread nD τ).loc main_arg11) :=
  (W2_of_ne m ρ c main_arg11 (by decide)).trans (W1_arg11 m ρ c)
theorem W2_arg12 (c : Dev nD) : W2 m ρ c (Proc.devRef .tc main_arg12) = m ((c : Thread nD τ).loc main_arg12) :=
  (W2_of_ne m ρ c main_arg12 (by decide)).trans (W1_arg12 m ρ c)

/-! ## Entering region 1: the second stretch of host operations -/

theorem W3_v35 (c : Dev nD) : W3 m ρ c (Proc.devRef .tc main_v35)
    = agg128 ((dat0 (V1 m ρ) c).arrAt 6 cfg0.N) (src (m ((c : Thread nD τ).loc main_arg1))) (dst (m ((c : Thread nD τ).loc main_arg1))) := by
  rw [← W2_v25 m ρ c, ← W2_v1 m ρ c, ← W2_v3 m ρ c]
  show StableHlo.after hostOps1 (W2 m ρ c) (Proc.devRef .tc main_v35) = _
  after_results_simp <;> rfl
theorem W3_v25 (c : Dev nD) : W3 m ρ c (Proc.devRef .tc main_v25) = (dat0 (V1 m ρ) c).arrAt 6 cfg0.N := by
  rw [← W2_v25 m ρ c]
  show StableHlo.after hostOps1 (W2 m ρ c) (Proc.devRef .tc main_v25) = _
  after_results_simp <;> rfl
theorem W3_v11 (c : Dev nD) : W3 m ρ c (Proc.devRef .tc main_v11) = inv (dst (m ((c : Thread nD τ).loc main_arg1))) := by
  rw [← W2_v11 m ρ c]
  show StableHlo.after hostOps1 (W2 m ρ c) (Proc.devRef .tc main_v11) = _
  after_results_simp <;> rfl
theorem W3_v1 (c : Dev nD) : W3 m ρ c (Proc.devRef .tc main_v1) = src (m ((c : Thread nD τ).loc main_arg1)) := by
  rw [← W2_v1 m ρ c]
  show StableHlo.after hostOps1 (W2 m ρ c) (Proc.devRef .tc main_v1) = _
  after_results_simp <;> rfl
theorem W3_v3 (c : Dev nD) : W3 m ρ c (Proc.devRef .tc main_v3) = dst (m ((c : Thread nD τ).loc main_arg1)) := by
  rw [← W2_v3 m ρ c]
  show StableHlo.after hostOps1 (W2 m ρ c) (Proc.devRef .tc main_v3) = _
  after_results_simp <;> rfl
theorem W3_v36 (c : Dev nD) : W3 m ρ c (Proc.devRef .tc main_v36) = tr128 (m ((c : Thread nD τ).loc main_arg5)) := by
  rw [← W2_arg5 m ρ c]
  show StableHlo.after hostOps1 (W2 m ρ c) (Proc.devRef .tc main_v36) = _
  after_results_simp <;> rfl
theorem W3_v37 (c : Dev nD) : W3 m ρ c (Proc.devRef .tc main_v37) = tr128 (m ((c : Thread nD τ).loc main_arg7)) := by
  rw [← W2_arg7 m ρ c]
  show StableHlo.after hostOps1 (W2 m ρ c) (Proc.devRef .tc main_v37) = _
  after_results_simp <;> rfl
theorem W3_v38 (c : Dev nD) : W3 m ρ c (Proc.devRef .tc main_v38) = row128 (m ((c : Thread nD τ).loc main_arg6)) := by
  rw [← W2_arg6 m ρ c]
  show StableHlo.after hostOps1 (W2 m ρ c) (Proc.devRef .tc main_v38) = _
  after_results_simp <;> rfl
theorem W3_arg8 (c : Dev nD) : W3 m ρ c (Proc.devRef .tc main_arg8) = m ((c : Thread nD τ).loc main_arg8) := by
  rw [← W2_arg8 m ρ c]
  show StableHlo.after hostOps1 (W2 m ρ c) (Proc.devRef .tc main_arg8) = _
  after_results_simp <;> rfl
theorem W3_arg9 (c : Dev nD) : W3 m ρ c (Proc.devRef .tc main_arg9) = m ((c : Thread nD τ).loc main_arg9) := by
  rw [← W2_arg9 m ρ c]
  show StableHlo.after hostOps1 (W2 m ρ c) (Proc.devRef .tc main_arg9) = _
  after_results_simp <;> rfl
theorem W3_arg10 (c : Dev nD) : W3 m ρ c (Proc.devRef .tc main_arg10) = m ((c : Thread nD τ).loc main_arg10) := by
  rw [← W2_arg10 m ρ c]
  show StableHlo.after hostOps1 (W2 m ρ c) (Proc.devRef .tc main_arg10) = _
  after_results_simp <;> rfl
theorem W3_arg11 (c : Dev nD) : W3 m ρ c (Proc.devRef .tc main_arg11) = m ((c : Thread nD τ).loc main_arg11) := by
  rw [← W2_arg11 m ρ c]
  show StableHlo.after hostOps1 (W2 m ρ c) (Proc.devRef .tc main_arg11) = _
  after_results_simp <;> rfl
theorem W3_arg12 (c : Dev nD) : W3 m ρ c (Proc.devRef .tc main_arg12) = m ((c : Thread nD τ).loc main_arg12) := by
  rw [← W2_arg12 m ρ c]
  show StableHlo.after hostOps1 (W2 m ρ c) (Proc.devRef .tc main_arg12) = _
  after_results_simp <;> rfl

/-! ## Leaving region 1 -/

theorem W4_v39 (c : Dev nD) : W4 m ρ c (Proc.devRef .tc main_v39) = (dat1 (V3 m ρ) c).arrAt 6 cfg1.N := W4_arr m ρ c 6
theorem W4_v1 (c : Dev nD) : W4 m ρ c (Proc.devRef .tc main_v1) = src (m ((c : Thread nD τ).loc main_arg1)) :=
  (W4_of_ne m ρ c main_v1 (by decide)).trans (W3_v1 m ρ c)
theorem W4_v3 (c : Dev nD) : W4 m ρ c (Proc.devRef .tc main_v3) = dst (m ((c : Thread nD τ).loc main_arg1)) :=
  (W4_of_ne m ρ c main_v3 (by decide)).trans (W3_v3 m ρ c)
theorem W4_v11 (c : Dev nD) : W4 m ρ c (Proc.devRef .tc main_v11) = inv (dst (m ((c : Thread nD τ).loc main_arg1))) :=
  ((W4_arr m ρ c 2).trans (((dat1 (V3 m ρ) c).arrAt_in 2 rfl _).trans (A_eq1 (V3 m ρ) c 2))).trans (W3_v11 m ρ c)
theorem W4_arg8 (c : Dev nD) : W4 m ρ c (Proc.devRef .tc main_arg8) = m ((c : Thread nD τ).loc main_arg8) :=
  (W4_of_ne m ρ c main_arg8 (by decide)).trans (W3_arg8 m ρ c)
theorem W4_arg9 (c : Dev nD) : W4 m ρ c (Proc.devRef .tc main_arg9) = m ((c : Thread nD τ).loc main_arg9) :=
  (W4_of_ne m ρ c main_arg9 (by decide)).trans (W3_arg9 m ρ c)
theorem W4_arg10 (c : Dev nD) : W4 m ρ c (Proc.devRef .tc main_arg10) = m ((c : Thread nD τ).loc main_arg10) :=
  (W4_of_ne m ρ c main_arg10 (by decide)).trans (W3_arg10 m ρ c)
theorem W4_arg11 (c : Dev nD) : W4 m ρ c (Proc.devRef .tc main_arg11) = m ((c : Thread nD τ).loc main_arg11) :=
  (W4_of_ne m ρ c main_arg11 (by decide)).trans (W3_arg11 m ρ c)
theorem W4_arg12 (c : Dev nD) : W4 m ρ c (Proc.devRef .tc main_arg12) = m ((c : Thread nD τ).loc main_arg12) :=
  (W4_of_ne m ρ c main_arg12 (by decide)).trans (W3_arg12 m ρ c)

/-! ## Entering region 2: the third stretch of host operations -/

theorem W5_v49 (c : Dev nD) : W5 m ρ c (Proc.devRef .tc main_v49)
    = agg128 ((dat1 (V3 m ρ) c).arrAt 6 cfg1.N) (src (m ((c : Thread nD τ).loc main_arg1))) (dst (m ((c : Thread nD τ).loc main_arg1))) := by
  rw [← W4_v39 m ρ c, ← W4_v1 m ρ c, ← W4_v3 m ρ c]
  show StableHlo.after hostOps2 (W4 m ρ c) (Proc.devRef .tc main_v49) = _
  after_results_simp <;> rfl
theorem W5_v39 (c : Dev nD) : W5 m ρ c (Proc.devRef .tc main_v39) = (dat1 (V3 m ρ) c).arrAt 6 cfg1.N := by
  rw [← W4_v39 m ρ c]
  show StableHlo.after hostOps2 (W4 m ρ c) (Proc.devRef .tc main_v39) = _
  after_results_simp <;> rfl
theorem W5_v11 (c : Dev nD) : W5 m ρ c (Proc.devRef .tc main_v11) = inv (dst (m ((c : Thread nD τ).loc main_arg1))) := by
  rw [← W4_v11 m ρ c]
  show StableHlo.after hostOps2 (W4 m ρ c) (Proc.devRef .tc main_v11) = _
  after_results_simp <;> rfl
theorem W5_v50 (c : Dev nD) : W5 m ρ c (Proc.devRef .tc main_v50) = tr128 (m ((c : Thread nD τ).loc main_arg8)) := by
  rw [← W4_arg8 m ρ c]
  show StableHlo.after hostOps2 (W4 m ρ c) (Proc.devRef .tc main_v50) = _
  after_results_simp <;> rfl
theorem W5_v51 (c : Dev nD) : W5 m ρ c (Proc.devRef .tc main_v51) = tr128 (m ((c : Thread nD τ).loc main_arg10)) := by
  rw [← W4_arg10 m ρ c]
  show StableHlo.after hostOps2 (W4 m ρ c) (Proc.devRef .tc main_v51) = _
  after_results_simp <;> rfl
theorem W5_v52 (c : Dev nD) : W5 m ρ c (Proc.devRef .tc main_v52) = row128 (m ((c : Thread nD τ).loc main_arg9)) := by
  rw [← W4_arg9 m ρ c]
  show StableHlo.after hostOps2 (W4 m ρ c) (Proc.devRef .tc main_v52) = _
  after_results_simp <;> rfl
theorem W5_v53 (c : Dev nD) : W5 m ρ c (Proc.devRef .tc main_v53) = trOut (m ((c : Thread nD τ).loc main_arg11)) := by
  rw [← W4_arg11 m ρ c]
  show StableHlo.after hostOps2 (W4 m ρ c) (Proc.devRef .tc main_v53) = _
  after_results_simp <;> rfl
theorem W5_v54 (c : Dev nD) : W5 m ρ c (Proc.devRef .tc main_v54) = row2 (m ((c : Thread nD τ).loc main_arg12)) := by
  rw [← W4_arg12 m ρ c]
  show StableHlo.after hostOps2 (W4 m ρ c) (Proc.devRef .tc main_v54) = _
  after_results_simp <;> rfl

/-! ## Leaving region 2: the result -/

theorem W6_v55 (c : Dev nD) : W6 m ρ c (Proc.devRef .tc main_v55) = (dat2 (V5 m ρ) c).arrAt 8 cfg2.N := W6_arr m ρ c 8

end Cert.KernelIdeal.HostSide

end
-- ==== Proof.KRun.lean ====
/-
  The idealized kernel's run with its result named.

  Every weakly fair execution of the kernel's program ends, nothing faulting, with the arguments as launched and the
  result buffer holding what the last of the three regions leaves in its output array: the buffer contents at the
  last segment boundary, read at the result's reference.  The three regions and the stretches of host operations
  between them are run in order from the launch memory; what each boundary holds is the fold of the host operations
  over the previous boundary, with each region's arrays replaced by what its write-backs leave.
-/
import proofs.«104166_j58042188038363_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library's launch theorem finds its implicit arguments by unifying its conclusion with this one, which takes
-- unfolding plain definitions in a metavariable's type
set_option backward.isDefEq.respectTransparency.types false in
/-- The run of the whole program: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v55) = W6 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v55 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)

end Cert.KernelIdeal.ValueRun

end
-- ==== Proof.LibRecip.lean ====
/-
  Multiplying by a reciprocal against dividing, over the extended reals.

  A program that carries `1 / d` and multiplies agrees with one that divides by `d` as soon as `d` is not zero: off
  zero a quotient `a / d` is `a · d⁻¹`, and `1 / d` is `1 · d⁻¹ = d⁻¹`, at the infinities too (`(±∞)⁻¹ = 0`).  A
  divisor that is a maximum with one (a clamped count) is at least one, hence not zero.  No finiteness is needed.
-/
import Idealize.ShloMosaic.PureOps.Ideal

noncomputable section

namespace Cert.LibRecip

open Idealize.ShloMosaic

/-- The single-precision pattern of one denotes the number one. -/
theorem one_f32 : Ideal.ofBits .f32 0x3F800000#32 = 1 := by
  simp [Ideal.ofBits, Ideal.ieee, -EReal.coe_mul]; norm_num

/-- Multiplying by the reciprocal of a nonzero extended real is dividing by it. -/
theorem mul_recip_of_ne_zero (a d : EReal) (hne : d ≠ 0) : a * Ideal.div 1 d = Ideal.div a d := by
  rw [Ideal.div, if_neg hne, Ideal.div, if_neg hne, one_mul]

/-- Multiplying by the reciprocal of a number that is at least one is dividing by it, on every extended real. -/
theorem mul_recip (a d : EReal) (hd : 1 ≤ d) : a * Ideal.div 1 d = Ideal.div a d :=
  mul_recip_of_ne_zero a d fun h => by rw [h] at hd; exact absurd hd (by norm_num)

end Cert.LibRecip

end
-- ==== Proof.LibGraphLayer.lean ====
/-
  One graph-convolution layer of the network, entry by entry over the extended reals, at any sizes.

  A layer combines, for node p and output channel q, the neighbour sum A (p, ·) scaled by a per-node factor with the
  node's own features X (p, ·):  (∑ k, (A (p,k) · I p) · Wl (k,q)  +  ∑ k, X (p,k) · Wr (k,q))  +  b q.
  The kernel carries the factor I p = 1 / d p, the reciprocal of the clamped in-degree d p = max (count p) 1, and
  multiplies; the reference divides the neighbour sum by d p and adds the bias before the second product.  The two
  agree on every extended real: d p ≥ 1 is not zero, so multiplying by 1 / d p is dividing by d p, and addition of
  extended reals is commutative and associative.  Nothing here needs the inputs to be finite.
-/
import Idealize.ShloMosaic.PureOps.Ideal
import Idealize.ShloMosaic.Lib.ValueIdx
import proofs.«104166_j58042188038363_2_alg».proof.Proof.LibRecip

noncomputable section

namespace Cert.Sage

open Idealize.ShloMosaic Idealize.ShloMosaic.ValueIdx

variable {N D H O : ℕ}

/-- A matrix of extended reals with a rows and b columns. -/
abbrev Mat (a b : ℕ) : Type := (⟨2, ![a, b]⟩ : Shape).Idx → EReal

/-- The layer before its activation, with the per-node factor multiplied in: entry (p, q) is
    (∑ k, (A (p,k) · I (p,0)) · Wl (k,q) + ∑ k, X (p,k) · Wr (k,q)) + b (0,q). -/
def combine (A X : Mat N D) (I : Mat N 1) (wl : Mat D H) (b : Mat 1 H) (wr : Mat D H) : Mat N H := fun i =>
  ((∑ k : Fin D, (A (ix2 (i 0) k) * I (ix2 (i 0) (0 : Fin 1))) * wl (ix2 k (i 1)))
    + ∑ k : Fin D, X (ix2 (i 0) k) * wr (ix2 k (i 1))) + b (ix2 (0 : Fin 1) (i 1))

/-- The rectifier, entry by entry. -/
def rect (Y : Mat N H) : Mat N H := fun i => max (Y i) 0

/-- The output projection: entry (p, q) is ∑ k, Y (p,k) · Wo (k,q) + bo (0,q). -/
def project (Y : Mat N H) (wo : Mat H O) (bo : Mat 1 O) : Mat N O := fun i =>
  (∑ k : Fin H, Y (ix2 (i 0) k) * wo (ix2 k (i 1))) + bo (ix2 (0 : Fin 1) (i 1))

theorem combine_apply (A X : Mat N D) (I : Mat N 1) (wl : Mat D H) (b : Mat 1 H) (wr : Mat D H) (p : Fin N) (q : Fin H) :
    combine A X I wl b wr (ix2 p q) = ((∑ k : Fin D, (A (ix2 p k) * I (ix2 p (0 : Fin 1))) * wl (ix2 k q))
      + ∑ k : Fin D, X (ix2 p k) * wr (ix2 k q)) + b (ix2 (0 : Fin 1) q) := rfl

theorem rect_apply (Y : Mat N H) (i : (⟨2, ![N, H]⟩ : Shape).Idx) : rect Y i = max (Y i) 0 := rfl

theorem project_apply (Y : Mat N H) (wo : Mat H O) (bo : Mat 1 O) (p : Fin N) (q : Fin O) :
    project Y wo bo (ix2 p q) = (∑ k : Fin H, Y (ix2 p k) * wo (ix2 k q)) + bo (ix2 (0 : Fin 1) q) := rfl

/-- THE LAW THAT JOINS THE TWO PROGRAMS, at one entry: with a divisor d ≥ 1, the sum of the neighbour terms each
    multiplied by 1 / d, plus the self term, plus the bias, is the sum of the neighbour terms each divided by d, plus the
    bias, plus the self term. -/
theorem entry_join {K : Type} [Fintype K] (a wl x wr : K → EReal) (d b : EReal) (hd : 1 ≤ d) :
    ((∑ k, (a k * Ideal.div 1 d) * wl k) + ∑ k, x k * wr k) + b
      = ((∑ k, Ideal.div (a k) d * wl k) + b) + ∑ k, x k * wr k := by
  simp only [Cert.LibRecip.mul_recip _ d hd]
  exact add_right_comm _ _ _

end Cert.Sage

end
-- ==== Proof.Net.lean ====
/-
  The network's three layers as functions of the arrays they read.

  Each layer is the specification's combined layer of: the neighbour sum of the layer's input (a host function of the input and the
  edge list), the input itself, the per-node factor one over the clamped in-degree, the two transposed weight
  matrices and the bias as one row.  The first two layers are rectified; the last is followed by the projection to
  the two outputs.
-/
import proofs.«104166_j58042188038363_2_alg».proof.Proof.KHost
import proofs.«104166_j58042188038363_2_alg».proof.Proof.LibGraphLayer

noncomputable section

namespace Cert.KernelIdeal.KValue

open Cert.KernelIdeal Cert.KernelIdeal.Gen Cert.KernelIdeal.HostSide
open Idealize.ShloMosaic Idealize.ShloMosaic.TcCoe Idealize.SL.Sem
open Cert.Sage

/-! ## The three layers as functions of their input arrays -/

/-- The first layer: the 165 input features of every node and of its neighbours to 128 hidden features, rectified. -/
def layerIn (x : Mat 100000 165) (e : (⟨S2x1600000, .i32⟩ : BufTy).Contents (Elt Ideal)) (wl : (⟨S128x165, .f32⟩ : BufTy).Contents (Elt Ideal))
    (b : (⟨S128, .f32⟩ : BufTy).Contents (Elt Ideal)) (wr : (⟨S128x165, .f32⟩ : BufTy).Contents (Elt Ideal)) : Mat 100000 128 :=
  rect (combine (agg165 (F := Ideal) x (src e) (dst e)) x (HostSide.inv (F := Ideal) (dst e)) (tr165 (F := Ideal) wl) (row128 (F := Ideal) b) (tr165 (F := Ideal) wr))

/-- A hidden layer: 128 features to 128, rectified. -/
def layerHid (h : Mat 100000 128) (e : (⟨S2x1600000, .i32⟩ : BufTy).Contents (Elt Ideal)) (wl : (⟨S128x128, .f32⟩ : BufTy).Contents (Elt Ideal))
    (b : (⟨S128, .f32⟩ : BufTy).Contents (Elt Ideal)) (wr : (⟨S128x128, .f32⟩ : BufTy).Contents (Elt Ideal)) : Mat 100000 128 :=
  rect (combine (agg128 (F := Ideal) h (src e) (dst e)) h (HostSide.inv (F := Ideal) (dst e)) (tr128 (F := Ideal) wl) (row128 (F := Ideal) b) (tr128 (F := Ideal) wr))

/-- The last layer, not rectified, followed by the projection to the two outputs. -/
def layerOut (h : Mat 100000 128) (e : (⟨S2x1600000, .i32⟩ : BufTy).Contents (Elt Ideal)) (wl : (⟨S128x128, .f32⟩ : BufTy).Contents (Elt Ideal))
    (b : (⟨S128, .f32⟩ : BufTy).Contents (Elt Ideal)) (wr : (⟨S128x128, .f32⟩ : BufTy).Contents (Elt Ideal))
    (wo : (⟨S2x128, .f32⟩ : BufTy).Contents (Elt Ideal)) (bo : (⟨S2, .f32⟩ : BufTy).Contents (Elt Ideal)) : Mat 100000 2 :=
  project (combine (agg128 (F := Ideal) h (src e) (dst e)) h (HostSide.inv (F := Ideal) (dst e)) (tr128 (F := Ideal) wl) (row128 (F := Ideal) b) (tr128 (F := Ideal) wr))
    (trOut (F := Ideal) wo) (row2 (F := Ideal) bo)

end Cert.KernelIdeal.KValue

end
-- ==== Proof.LibProduct.lean ====
/-
  A matrix product read at an entry, for any sizes.

  For an M by K left factor and a K by N right factor contracted along the left factor's columns and the right
  factor's rows (no batch axis), the operand indices at the output entry (a, b) and the contraction index c are
  (a, c) and (c, b).  So the entry (a, b) of the product is ∑ c, l (a, c) · r (c, b): for the matrix unit's product
  into a zero accumulator and for the host's general product alike.  Row a of the product depends on row a of the
  left factor only.
-/
import Idealize.ShloMosaic.PureOps.Ideal
import Idealize.ShloMosaic.PureOps.Ideal.Laws
import Idealize.ShloMosaic.Lib.ValueIdx

noncomputable section

namespace Cert.LibProduct

open Idealize.ShloMosaic Idealize.ShloMosaic.ValueIdx

variable {M K N : ℕ}

/-- The row-by-column dimension numbers: the left factor's columns against the right factor's rows, no batch axis. -/
abbrev rowCol (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

/-- The left operand's row coordinate at the output entry (a, b) is a, whatever the contraction index. -/
theorem lhs_row (wf : DotDims.WF ⟨2, ![M, K]⟩ ⟨2, ![K, N]⟩ ⟨2, ![M, N]⟩ [1] [0] [0] [1] [] [])
    (i : (⟨2, ![M, N]⟩ : Shape).Idx) (q : (rowCol wf).contr.Idx) : ((rowCol wf).lhsIdx i q 0).val = (i 0).val := by
  unfold DotDims.lhsIdx
  rw [dif_neg (by simp), dif_pos (by simp)]
  rfl

/-- The right operand's column coordinate at the output entry (a, b) is b, whatever the contraction index. -/
theorem rhs_col (wf : DotDims.WF ⟨2, ![M, K]⟩ ⟨2, ![K, N]⟩ ⟨2, ![M, N]⟩ [1] [0] [0] [1] [] [])
    (i : (⟨2, ![M, N]⟩ : Shape).Idx) (q : (rowCol wf).contr.Idx) : ((rowCol wf).rhsIdx i q 1).val = (i 1).val := by
  unfold DotDims.rhsIdx
  rw [dif_neg (by simp), dif_pos (by simp)]
  rfl

/-- The sum over the contraction index of the products of the operands' entries is the sum over the shared
    coordinate c of l (a, c) · r (c, b). -/
theorem sum_products (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (a : Fin M) (b : Fin N) :
    ∑ k : (rowCol wf).contr.Idx, l ((rowCol wf).lhsIdx (ix2 a b) k) * r ((rowCol wf).rhsIdx (ix2 a b) k)
      = ∑ c : Fin K, l (ix2 a c) * r (ix2 c b) := by
  rw [← Equiv.sum_comp (contrEquiv1 (rowCol wf) K rfl rfl).symm]
  refine Finset.sum_congr rfl fun c _ => ?_
  have hk := contrEquiv1_symm_val (rowCol wf) K rfl rfl c
  have el : (rowCol wf).lhsIdx (ix2 a b) ((contrEquiv1 (rowCol wf) K rfl rfl).symm c) = ix2 a c := funext fun ax => Fin.ext (by
    match ax with
    | ⟨0, _⟩ => exact lhs_row wf _ _
    | ⟨1, _⟩ => exact ((rowCol wf).lhsIdx_val_of_single rfl (ix2 a b) _).trans hk)
  have er : (rowCol wf).rhsIdx (ix2 a b) ((contrEquiv1 (rowCol wf) K rfl rfl).symm c) = ix2 c b := funext fun ax => Fin.ext (by
    match ax with
    | ⟨0, _⟩ => exact ((rowCol wf).rhsIdx_val_of_single rfl (ix2 a b) _).trans hk
    | ⟨1, _⟩ => exact rhs_col wf _ _)
  rw [el, er]

/-- THE MATRIX UNIT'S PRODUCT INTO A ZERO ACCUMULATOR AT AN ENTRY, for any record of dimension numbers with the
    row-by-column axis lists. -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ c : Fin K, l (ix2 a c) * r (ix2 c b) := by
  obtain ⟨lc, rc, ln, rn, lb, rb, wf⟩ := d
  dsimp only at h1 h2 h3 h4 h5 h6
  subst h1 h2 h3 h4 h5 h6
  rw [Ideal.matmul_constant_zero_apply]
  exact sum_products wf l r a b

/-- THE HOST'S GENERAL PRODUCT AT AN ENTRY, for any such record. -/
theorem dotGeneral_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![M, K]⟩ φ₁) (r : FVec Ideal ⟨2, ![K, N]⟩ φ₂) (a : Fin M) (b : Fin N) :
    Host.dotGeneral d prec l r (ix2 a b) = ∑ c : Fin K, l (ix2 a c) * r (ix2 c b) := by
  obtain ⟨lc, rc, ln, rn, lb, rb, wf⟩ := d
  dsimp only at h1 h2 h3 h4 h5 h6
  subst h1 h2 h3 h4 h5 h6
  simp only [Host.dotGeneral]
  rw [Ideal.dotGeneral_apply]
  exact sum_products wf l r a b

end Cert.LibProduct

end
-- ==== Proof.LibColumnBroadcast.lean ====
/-
  One column broadcast over many: a reusable fact about array layouts, independent of any program.
-/
import Idealize.ShloMosaic.Lib.Pipeline.Value
import Idealize.ShloMosaic.Lib.ValueIdx

namespace LibColumnBroadcast

open Idealize.ShloMosaic Idealize.ShloMosaic.ValueIdx

/-- An `[a, 1]` array (one value per row, kept as a column) broadcast to `[a, b]` reads, at `(p, c)`, the column's value
    in row `p`, whatever the column `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end LibColumnBroadcast
-- ==== Proof.LibGraphLayerBlock.lean ====
/-
  One layer of the network as its row-block program computes it, read entry by entry, at any sizes.

  On a block of rows the program scales the neighbour sums A by the per-row factor I (a column laid along every
  column of A), multiplies the scaled sums by the left weights and the rows' own features X by the right weights on
  the matrix unit (each product accumulated from zero), adds the two products, and adds the bias (one row laid along
  every row).  Over the extended reals a change of number format is the identity and every product is exact, so
  the entry (p, q) of the result is

      (∑ k, (A (p,k) · I (p,0)) · Wl (k,q)  +  ∑ k, X (p,k) · Wr (k,q))  +  b (0,q),

  the specification's combined layer.  The hidden layers then take the maximum with zero; the output layer
  multiplies the result by the output weights and adds the output bias.  Row p of every result depends on row p of
  A, X and I only, which is what lets the rows be computed block by block.
-/
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout
import proofs.«104166_j58042188038363_2_alg».proof.Proof.LibGraphLayer
import proofs.«104166_j58042188038363_2_alg».proof.Proof.LibProduct
import proofs.«104166_j58042188038363_2_alg».proof.Proof.LibColumnBroadcast

noncomputable section

namespace Cert.Sage.Payload

open Idealize.ShloMosaic Idealize.ShloMosaic.ValueIdx

variable {M D H O : ℕ}

/-- THE COMBINED LAYER ON A BLOCK OF ROWS, at an entry: the two products into zero accumulators, added, plus the
    bias row, is the specification's combined layer of the block's operands. -/
theorem pre_apply (d : DotDims ⟨2, ![M, D]⟩ ⟨2, ![D, H]⟩ ⟨2, ![M, H]⟩)
    (h1 : d.lhsContracting = [1]) (h2 : d.rhsContracting = [0]) (h3 : d.lhsNonContracting = [0])
    (h4 : d.rhsNonContracting = [1]) (h5 : d.lhsBatch = []) (h6 : d.rhsBatch = [])
    (hI : (⟨2, ![M, 1]⟩ : Shape).Broadcasts ⟨2, ![M, D]⟩) (hb : (⟨2, ![1, H]⟩ : Shape).Broadcasts ⟨2, ![M, H]⟩)
    (hlt : FTy.bf16.bits < FTy.f32.bits)
    (A X : FVec Ideal ⟨2, ![M, D]⟩ .f32) (I : FVec Ideal ⟨2, ![M, 1]⟩ .f32)
    (wl wr : FVec Ideal ⟨2, ![D, H]⟩ .f32) (b : FVec Ideal ⟨2, ![1, H]⟩ .f32) (p : Fin M) (q : Fin H) :
    addf (addf
        (matmul d none (truncf .bf16 (mulf A (broadcastTo ⟨2, ![M, D]⟩ I hI)) hlt) (truncf .bf16 wl hlt)
          (constant (F := Ideal) ⟨2, ![M, H]⟩ .f32 0x00000000#32))
        (matmul d none (truncf .bf16 X hlt) (truncf .bf16 wr hlt)
          (constant (F := Ideal) ⟨2, ![M, H]⟩ .f32 0x00000000#32)))
      (broadcastTo ⟨2, ![M, H]⟩ b hb) (ix2 p q)
      = Cert.Sage.combine A X I wl b wr (ix2 p q) := by
  rw [Cert.Sage.combine_apply]
  refine congrArg₂ (· + ·) (congrArg₂ (· + ·) ?_ ?_) (broadcastTo_1b_ab_apply b hb p q)
  · refine (Cert.LibProduct.matmul_zero_apply d h1 h2 h3 h4 h5 h6 none _ _ p q).trans ?_
    refine Finset.sum_congr rfl fun c _ => ?_
    show (A (ix2 p c) * broadcastTo ⟨2, ![M, D]⟩ I hI (ix2 p c)) * wl (ix2 c q) = _
    rw [LibColumnBroadcast.broadcastTo_a1_ab_apply]
  · exact Cert.LibProduct.matmul_zero_apply d h1 h2 h3 h4 h5 h6 none _ _ p q

/-- A HIDDEN LAYER ON A BLOCK OF ROWS: the combined layer, then the maximum with the zero splat, is the
    specification's rectified layer. -/
theorem hidden_eq (d : DotDims ⟨2, ![M, D]⟩ ⟨2, ![D, H]⟩ ⟨2, ![M, H]⟩)
    (h1 : d.lhsContracting = [1]) (h2 : d.rhsContracting = [0]) (h3 : d.lhsNonContracting = [0])
    (h4 : d.rhsNonContracting = [1]) (h5 : d.lhsBatch = []) (h6 : d.rhsBatch = [])
    (hI : (⟨2, ![M, 1]⟩ : Shape).Broadcasts ⟨2, ![M, D]⟩) (hb : (⟨2, ![1, H]⟩ : Shape).Broadcasts ⟨2, ![M, H]⟩)
    (hlt : FTy.bf16.bits < FTy.f32.bits)
    (A X : FVec Ideal ⟨2, ![M, D]⟩ .f32) (I : FVec Ideal ⟨2, ![M, 1]⟩ .f32)
    (wl wr : FVec Ideal ⟨2, ![D, H]⟩ .f32) (b : FVec Ideal ⟨2, ![1, H]⟩ .f32) :
    maximumf (addf (addf
        (matmul d none (truncf .bf16 (mulf A (broadcastTo ⟨2, ![M, D]⟩ I hI)) hlt) (truncf .bf16 wl hlt)
          (constant (F := Ideal) ⟨2, ![M, H]⟩ .f32 0x00000000#32))
        (matmul d none (truncf .bf16 X hlt) (truncf .bf16 wr hlt)
          (constant (F := Ideal) ⟨2, ![M, H]⟩ .f32 0x00000000#32)))
      (broadcastTo ⟨2, ![M, H]⟩ b hb)) (broadcast ⟨2, ![M, H]⟩ (Scalar.ofBits (F := Ideal) .f32 0x00000000#32))
      = Cert.Sage.rect (Cert.Sage.combine A X I wl b wr) := by
  funext j
  obtain ⟨p, q, rfl⟩ : ∃ (p : Fin M) (q : Fin H), j = ix2 p q := ⟨j 0, j 1, eq_ix2 j⟩
  rw [Cert.Sage.rect_apply, ← pre_apply d h1 h2 h3 h4 h5 h6 hI hb hlt A X I wl wr b p q]
  show max _ (Ideal.ofBits .f32 0x00000000#32) = _
  rw [Ideal.ofBits_zero_f32]

/-- THE OUTPUT LAYER ON A BLOCK OF ROWS: the combined layer, multiplied by the output weights into a zero
    accumulator, plus the output bias row, is the specification's projected layer. -/
theorem output_eq (d : DotDims ⟨2, ![M, D]⟩ ⟨2, ![D, H]⟩ ⟨2, ![M, H]⟩)
    (h1 : d.lhsContracting = [1]) (h2 : d.rhsContracting = [0]) (h3 : d.lhsNonContracting = [0])
    (h4 : d.rhsNonContracting = [1]) (h5 : d.lhsBatch = []) (h6 : d.rhsBatch = [])
    (e : DotDims ⟨2, ![M, H]⟩ ⟨2, ![H, O]⟩ ⟨2, ![M, O]⟩)
    (e1 : e.lhsContracting = [1]) (e2 : e.rhsContracting = [0]) (e3 : e.lhsNonContracting = [0])
    (e4 : e.rhsNonContracting = [1]) (e5 : e.lhsBatch = []) (e6 : e.rhsBatch = [])
    (hI : (⟨2, ![M, 1]⟩ : Shape).Broadcasts ⟨2, ![M, D]⟩) (hb : (⟨2, ![1, H]⟩ : Shape).Broadcasts ⟨2, ![M, H]⟩)
    (hbo : (⟨2, ![1, O]⟩ : Shape).Broadcasts ⟨2, ![M, O]⟩)
    (hlt : FTy.bf16.bits < FTy.f32.bits)
    (A X : FVec Ideal ⟨2, ![M, D]⟩ .f32) (I : FVec Ideal ⟨2, ![M, 1]⟩ .f32)
    (wl wr : FVec Ideal ⟨2, ![D, H]⟩ .f32) (b : FVec Ideal ⟨2, ![1, H]⟩ .f32)
    (wo : FVec Ideal ⟨2, ![H, O]⟩ .f32) (bo : FVec Ideal ⟨2, ![1, O]⟩ .f32) :
    addf (matmul e none (truncf .bf16 (addf (addf
        (matmul d none (truncf .bf16 (mulf A (broadcastTo ⟨2, ![M, D]⟩ I hI)) hlt) (truncf .bf16 wl hlt)
          (constant (F := Ideal) ⟨2, ![M, H]⟩ .f32 0x00000000#32))
        (matmul d none (truncf .bf16 X hlt) (truncf .bf16 wr hlt)
          (constant (F := Ideal) ⟨2, ![M, H]⟩ .f32 0x00000000#32)))
      (broadcastTo ⟨2, ![M, H]⟩ b hb)) hlt) (truncf .bf16 wo hlt)
        (constant (F := Ideal) ⟨2, ![M, O]⟩ .f32 0x00000000#32))
      (broadcastTo ⟨2, ![M, O]⟩ bo hbo)
      = Cert.Sage.project (Cert.Sage.combine A X I wl b wr) wo bo := by
  funext j
  obtain ⟨p, q, rfl⟩ : ∃ (p : Fin M) (q : Fin O), j = ix2 p q := ⟨j 0, j 1, eq_ix2 j⟩
  rw [Cert.Sage.project_apply]
  refine congrArg₂ (· + ·) ?_ (broadcastTo_1b_ab_apply bo hbo p q)
  refine (Cert.LibProduct.matmul_zero_apply e e1 e2 e3 e4 e5 e6 none _ _ p q).trans ?_
  refine Finset.sum_congr rfl fun c _ => ?_
  exact congrArg (· * wo (ix2 c q)) (pre_apply d h1 h2 h3 h4 h5 h6 hI hb hlt A X I wl wr b p c)

/-! ## Row by row

Row p of the combined layer reads row p of the neighbour sums, of the features and of the factor column, and nothing
else of them; so the layer of a block of rows is the same block of rows of the layer of the whole arrays. -/

variable {N : ℕ}

/-- The offsets of a block that starts at the origin, however the zeros are spelt. -/
theorem zero_offsets : (![0, 0] : Fin 2 → Nat) = fun _ => 0 := funext fun a => by fin_cases a <;> rfl

/-- The combined layer at row p of a block is the combined layer of the whole arrays at row r, when row p of the
    block's neighbour sums, features and factor is row r of the whole arrays'. -/
theorem combine_rows (A X : Cert.Sage.Mat N D) (I : Cert.Sage.Mat N 1) (A' X' : Cert.Sage.Mat M D) (I' : Cert.Sage.Mat M 1)
    (wl : Cert.Sage.Mat D H) (b : Cert.Sage.Mat 1 H) (wr : Cert.Sage.Mat D H) (p : Fin M) (r : Fin N) (q : Fin H)
    (hA : ∀ k : Fin D, A' (ix2 p k) = A (ix2 r k)) (hX : ∀ k : Fin D, X' (ix2 p k) = X (ix2 r k))
    (hI : I' (ix2 p (0 : Fin 1)) = I (ix2 r (0 : Fin 1))) :
    Cert.Sage.combine A' X' I' wl b wr (ix2 p q) = Cert.Sage.combine A X I wl b wr (ix2 r q) := by
  rw [Cert.Sage.combine_apply, Cert.Sage.combine_apply, hI]
  simp only [hA, hX]

/-- The same for the rectified layer. -/
theorem rect_combine_rows (A X : Cert.Sage.Mat N D) (I : Cert.Sage.Mat N 1) (A' X' : Cert.Sage.Mat M D) (I' : Cert.Sage.Mat M 1)
    (wl : Cert.Sage.Mat D H) (b : Cert.Sage.Mat 1 H) (wr : Cert.Sage.Mat D H) (p : Fin M) (r : Fin N) (q : Fin H)
    (hA : ∀ k : Fin D, A' (ix2 p k) = A (ix2 r k)) (hX : ∀ k : Fin D, X' (ix2 p k) = X (ix2 r k))
    (hI : I' (ix2 p (0 : Fin 1)) = I (ix2 r (0 : Fin 1))) :
    Cert.Sage.rect (Cert.Sage.combine A' X' I' wl b wr) (ix2 p q) = Cert.Sage.rect (Cert.Sage.combine A X I wl b wr) (ix2 r q) := by
  rw [Cert.Sage.rect_apply, Cert.Sage.rect_apply, combine_rows A X I A' X' I' wl b wr p r q hA hX hI]

/-- The same for the projected layer: its row p sums over row p of the combined layer. -/
theorem project_combine_rows (A X : Cert.Sage.Mat N D) (I : Cert.Sage.Mat N 1) (A' X' : Cert.Sage.Mat M D) (I' : Cert.Sage.Mat M 1)
    (wl : Cert.Sage.Mat D H) (b : Cert.Sage.Mat 1 H) (wr : Cert.Sage.Mat D H) (wo : Cert.Sage.Mat H O) (bo : Cert.Sage.Mat 1 O)
    (p : Fin M) (r : Fin N) (q : Fin O)
    (hA : ∀ k : Fin D, A' (ix2 p k) = A (ix2 r k)) (hX : ∀ k : Fin D, X' (ix2 p k) = X (ix2 r k))
    (hI : I' (ix2 p (0 : Fin 1)) = I (ix2 r (0 : Fin 1))) :
    Cert.Sage.project (Cert.Sage.combine A' X' I' wl b wr) wo bo (ix2 p q)
      = Cert.Sage.project (Cert.Sage.combine A X I wl b wr) wo bo (ix2 r q) := by
  rw [Cert.Sage.project_apply, Cert.Sage.project_apply]
  simp only [combine_rows A X I A' X' I' wl b wr p r _ hA hX hI]

end Cert.Sage.Payload

end
-- ==== Proof.Region0.lean ====
/-
  The first hidden layer on the whole graph, from its row blocks.

  The layer is computed 4000 rows at a time, 25 times: at step t the program reads rows 4000·t … 4000·t + 3999 of the
  neighbour sums, of the nodes' input features (165 to a row) and of the per-row factor, reads the two weight matrices and the
  bias whole, and writes the same rows of the result.  A row of the layer depends on the same row of those three
  arrays only, so what step t writes is rows 4000·t … 4000·t + 3999 of the layer of the WHOLE arrays; the 25 blocks
  tile the 100000 rows (row r lies in block r / 4000), so the array ends holding the layer of the whole arrays.
-/
import proofs.«104166_j58042188038363_2_alg».proof.Proof.Gen.KernelIdeal.Frame
import proofs.«104166_j58042188038363_2_alg».proof.Proof.LibGraphLayer
import proofs.«104166_j58042188038363_2_alg».proof.Proof.LibGraphLayerBlock
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- What one step computes from its blocks: the rectified combined layer of the blocks. -/
theorem pay0_eq (x0 x1 : Vec Ideal S4000x165 .f32) (x2 : Vec Ideal S4000x1 .f32) (x3 : Vec Ideal S165x128 .f32)
    (x4 : Vec Ideal S1x128 .f32) (x5 : Vec Ideal S165x128 .f32) :
    k0_pay1 (F := Ideal) x0 x2 x1 x3 x5 x4 = Cert.Sage.rect (Cert.Sage.combine x0 x1 x2 x3 x4 x5) := by
  unfold k0_pay1
  simp only [shapeCast_self]
  exact Cert.Sage.Payload.hidden_eq dot_S4000x165_S165x128_S4000x128_1_0_0_1_n_n rfl rfl rfl rfl rfl rfl _ _ _ x0 x1 x2 x3 x5 x4

/-- Where each array's block sits at step t: the three row-blocked inputs and the result at row block t, column
    block 0; the weights and the bias at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of the neighbour sums' block at step t is row 4000·t + p of the array. -/
theorem blk0_0 (c : Dev nD) (t : Fin cfg0.N) (p : Fin 4000) (k : Fin 165) (r : Fin 100000) (hr : r.val = t.val * 4000 + p.val) :
    (iblk0 V c 0 t : Vec Ideal S4000x165 .f32) (ix2 p k) = (V c main_v21 : S100000x165.Idx → EReal) (ix2 r k) := by
  obtain ⟨e0, e1, -⟩ := idx0 t
  unfold iblk0
  rw [View.read_apply]
  show V c main_v21 _ = V c main_v21 _
  congr 1
  funext a
  apply Fin.ext
  match a with
  | ⟨0, _⟩ => show win0_0.index t (0 : Fin 2) * 4000 + 1 * p.val = r.val; rw [e0, hr]; omega
  | ⟨1, _⟩ => show win0_0.index t (1 : Fin 2) * 165 + 1 * k.val = k.val; rw [e1]; omega

/-- Row p of the features' block at step t is row 4000·t + p of the array. -/
theorem blk0_1 (c : Dev nD) (t : Fin cfg0.N) (p : Fin 4000) (k : Fin 165) (r : Fin 100000) (hr : r.val = t.val * 4000 + p.val) :
    (iblk0 V c 1 t : Vec Ideal S4000x165 .f32) (ix2 p k) = (V c main_arg0 : S100000x165.Idx → EReal) (ix2 r k) := by
  obtain ⟨-, -, e0, e1, -⟩ := idx0 t
  unfold iblk0
  rw [View.read_apply]
  show V c main_arg0 _ = V c main_arg0 _
  congr 1
  funext a
  apply Fin.ext
  match a with
  | ⟨0, _⟩ => show win0_1.index t (0 : Fin 2) * 4000 + 1 * p.val = r.val; rw [e0, hr]; omega
  | ⟨1, _⟩ => show win0_1.index t (1 : Fin 2) * 165 + 1 * k.val = k.val; rw [e1]; omega

/-- Row p of the factor column's block at step t is row 4000·t + p of the column. -/
theorem blk0_2 (c : Dev nD) (t : Fin cfg0.N) (p : Fin 4000) (r : Fin 100000) (hr : r.val = t.val * 4000 + p.val) :
    (iblk0 V c 2 t : Vec Ideal S4000x1 .f32) (ix2 p (0 : Fin 1)) = (V c main_v11 : S100000x1.Idx → EReal) (ix2 r (0 : Fin 1)) := by
  obtain ⟨-, -, -, -, e0, e1, -⟩ := idx0 t
  unfold iblk0
  rw [View.read_apply]
  show V c main_v11 _ = V c main_v11 _
  congr 1
  funext a
  apply Fin.ext
  match a with
  | ⟨0, _⟩ => show win0_2.index t (0 : Fin 2) * 4000 + 1 * p.val = r.val; rw [e0, hr]; omega
  | ⟨1, _⟩ => show win0_2.index t (1 : Fin 2) * 1 + 1 * 0 = 0; rw [e1]

/-- The left weights' block is the whole matrix at every step. -/
theorem blk0_3 (c : Dev nD) (t : Fin cfg0.N) : (iblk0 V c 3 t : Vec Ideal S165x128 .f32) = (V c main_v22 : S165x128.Idx → EReal) := by
  obtain ⟨-, -, -, -, -, -, e0, e1, -⟩ := idx0 t
  funext j
  unfold iblk0
  rw [View.read_apply]
  show V c main_v22 _ = V c main_v22 _
  congr 1
  funext a
  apply Fin.ext
  match a with
  | ⟨0, _⟩ => show win0_3.index t (0 : Fin 2) * 165 + 1 * (j 0).val = (j 0).val; rw [e0]; omega
  | ⟨1, _⟩ => show win0_3.index t (1 : Fin 2) * 128 + 1 * (j 1).val = (j 1).val; rw [e1]; omega

/-- The bias row's block is the whole row at every step. -/
theorem blk0_4 (c : Dev nD) (t : Fin cfg0.N) : (iblk0 V c 4 t : Vec Ideal S1x128 .f32) = (V c main_v24 : S1x128.Idx → EReal) := by
  obtain ⟨-, -, -, -, -, -, -, -, e0, e1, -⟩ := idx0 t
  funext j
  unfold iblk0
  rw [View.read_apply]
  show V c main_v24 _ = V c main_v24 _
  congr 1
  funext a
  apply Fin.ext
  match a with
  | ⟨0, _⟩ => show win0_4.index t (0 : Fin 2) * 1 + 1 * (j 0).val = (j 0).val; rw [e0]; omega
  | ⟨1, _⟩ => show win0_4.index t (1 : Fin 2) * 128 + 1 * (j 1).val = (j 1).val; rw [e1]; omega

/-- The right weights' block is the whole matrix at every step. -/
theorem blk0_5 (c : Dev nD) (t : Fin cfg0.N) : (iblk0 V c 5 t : Vec Ideal S165x128 .f32) = (V c main_v23 : S165x128.Idx → EReal) := by
  obtain ⟨-, -, -, -, -, -, -, -, -, -, e0, e1, -⟩ := idx0 t
  funext j
  unfold iblk0
  rw [View.read_apply]
  show V c main_v23 _ = V c main_v23 _
  congr 1
  funext a
  apply Fin.ext
  match a with
  | ⟨0, _⟩ => show win0_5.index t (0 : Fin 2) * 165 + 1 * (j 0).val = (j 0).val; rw [e0]; omega
  | ⟨1, _⟩ => show win0_5.index t (1 : Fin 2) * 128 + 1 * (j 1).val = (j 1).val; rw [e1]; omega

/-- WHAT STEP t WRITES BACK is rows 4000·t … 4000·t + 3999 of the rectified combined layer of the whole arrays. -/
theorem flushed0_eq (c : Dev nD) (t : Fin cfg0.N) :
    (dat0 (F := Ideal) V c).flushed 6 t = ((cfg0.win 6).blk t).view.read (Elt Ideal)
      (Cert.Sage.rect (Cert.Sage.combine (V c main_v21) (V c main_arg0) (V c main_v11) (V c main_v22) (V c main_v24) (V c main_v23))) := by
  show (cfg0.win 6).cut (grid0.coords t) ((dat0 V c).after 6 t) = _
  rw [after0_6]
  unfold out0_6
  rw [View.canon_unit_zero Cert.Sage.Payload.zero_offsets]
  simp only [View.ld_unit_zero (S := S4000x165) Cert.Sage.Payload.zero_offsets, View.ld_unit_zero (S := S4000x1) Cert.Sage.Payload.zero_offsets,
    View.ld_unit_zero (S := S165x128) Cert.Sage.Payload.zero_offsets, View.ld_unit_zero (S := S1x128) Cert.Sage.Payload.zero_offsets]
  rw [pay0_eq, blk0_3 V c t, blk0_4 V c t, blk0_5 V c t]
  obtain ⟨-, -, -, -, -, -, -, -, -, -, -, -, e0, e1⟩ := idx0 t
  funext y
  have hy0 : (y 0).val < 4000 := (y 0).isLt
  have hy1 : (y 1).val < 128 := (y 1).isLt
  have ht : t.val < 25 := t.isLt
  have hL : ((cfg0.win 6).xinj (grid0.coords t) y : S4000x128.Idx) = ix2 (⟨(y 0).val, hy0⟩ : Fin 4000) (⟨(y 1).val, hy1⟩ : Fin 128) :=
    funext fun a => Fin.ext (by match a with | ⟨0, _⟩ => rfl | ⟨1, _⟩ => rfl)
  have hR : (((cfg0.win 6).blk t).view.emb y : S100000x128.Idx)
      = ix2 (⟨t.val * 4000 + (y 0).val, by omega⟩ : Fin 100000) (⟨(y 1).val, hy1⟩ : Fin 128) :=
    funext fun a => Fin.ext (by
      match a with
      | ⟨0, _⟩ => show win0_6.index t (0 : Fin 2) * 4000 + 1 * (y 0).val = t.val * 4000 + (y 0).val; rw [e0]; omega
      | ⟨1, _⟩ => show win0_6.index t (1 : Fin 2) * 128 + 1 * (y 1).val = (y 1).val; rw [e1]; omega)
  show Cert.Sage.rect _ ((cfg0.win 6).xinj (grid0.coords t) y) = Cert.Sage.rect _ (((cfg0.win 6).blk t).view.emb y)
  rw [hL, hR]
  exact Cert.Sage.Payload.rect_combine_rows _ _ _ _ _ _ _ _ _ _ _ _ (fun k => blk0_0 V c t _ k _ rfl) (fun k => blk0_1 V c t _ k _ rfl)
    (blk0_2 V c t _ _ rfl)

/-- An index of the result is in step t's block iff its row and column are in the block's ranges. -/
theorem mem_blk0 (t : Fin cfg0.N) (i : S100000x128.Idx) :
    i ∈ ((cfg0.win 6).blk t).view.set ↔ ∀ a : Fin 2, win0_6.index t a * S4000x128.size a ≤ (i a).val
      ∧ (i a).val < win0_6.index t a * S4000x128.size a + S4000x128.size a := by
  show i ∈ ((View.whole main_v25).slice (win0_6.rect t)).set ↔ _
  rw [View.set_slice_whole, Rect.mem_set_unit]
  exact Iff.rfl

/-- Every index of the result is in the block of the step its row falls in: row r in block r / 4000. -/
theorem cover0 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : (i 0).val / 4000 < cfg0.N := by rw [show cfg0.N = 25 from N_0]; omega
  obtain ⟨-, -, -, -, -, -, -, -, -, -, -, -, e0, e1⟩ := idx0 ⟨(i 0).val / 4000, hN⟩
  refine ⟨⟨(i 0).val / 4000, hN⟩, flush0_6 _, ?_⟩
  rw [mem_blk0]
  intro a
  match a with
  | ⟨0, _⟩ =>
    show win0_6.index ⟨(i 0).val / 4000, hN⟩ (0 : Fin 2) * 4000 ≤ (i 0).val
      ∧ (i 0).val < win0_6.index ⟨(i 0).val / 4000, hN⟩ (0 : Fin 2) * 4000 + 4000
    rw [e0]; show (i 0).val / 4000 * 4000 ≤ (i 0).val ∧ (i 0).val < (i 0).val / 4000 * 4000 + 4000; omega
  | ⟨1, _⟩ =>
    show win0_6.index ⟨(i 0).val / 4000, hN⟩ (1 : Fin 2) * 128 ≤ (i 1).val
      ∧ (i 1).val < win0_6.index ⟨(i 0).val / 4000, hN⟩ (1 : Fin 2) * 128 + 128
    rw [e1]; omega

/-- THE FIRST HIDDEN LAYER'S ARRAY after its 25 steps is the rectified combined layer of the arrays the steps read. -/
theorem region0 (c : Dev nD) : (dat0 (F := Ideal) V c).arrAt 6 cfg0.N
    = Cert.Sage.rect (Cert.Sage.combine (V c main_v21) (V c main_arg0) (V c main_v11) (V c main_v22) (V c main_v24) (V c main_v23)) :=
  (dat0 V c).arrAt_eq_of_cover 6 _ (fun t _ => flushed0_eq V c t) cover0

end Cert.KernelIdeal.RegionValue

end
-- ==== Proof.Region1.lean ====
/-
  The second hidden layer on the whole graph, from its row blocks.

  The layer is computed 4000 rows at a time, 25 times: at step t the program reads rows 4000·t … 4000·t + 3999 of the
  neighbour sums, of the first layer's features and of the per-row factor, reads the two weight matrices and the
  bias whole, and writes the same rows of the result.  A row of the layer depends on the same row of those three
  arrays only, so what step t writes is rows 4000·t … 4000·t + 3999 of the layer of the WHOLE arrays; the 25 blocks
  tile the 100000 rows (row r lies in block r / 4000), so the array ends holding the layer of the whole arrays.
-/
import proofs.«104166_j58042188038363_2_alg».proof.Proof.Gen.KernelIdeal.Frame
import proofs.«104166_j58042188038363_2_alg».proof.Proof.LibGraphLayer
import proofs.«104166_j58042188038363_2_alg».proof.Proof.LibGraphLayerBlock
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- What one step computes from its blocks: the rectified combined layer of the blocks. -/
theorem pay1_eq (x0 x1 : Vec Ideal S4000x128 .f32) (x2 : Vec Ideal S4000x1 .f32) (x3 : Vec Ideal S128x128 .f32)
    (x4 : Vec Ideal S1x128 .f32) (x5 : Vec Ideal S128x128 .f32) :
    k1_pay1 (F := Ideal) x0 x2 x1 x3 x5 x4 = Cert.Sage.rect (Cert.Sage.combine x0 x1 x2 x3 x4 x5) := by
  unfold k1_pay1
  simp only [shapeCast_self]
  exact Cert.Sage.Payload.hidden_eq dot_S4000x128_S128x128_S4000x128_1_0_0_1_n_n rfl rfl rfl rfl rfl rfl _ _ _ x0 x1 x2 x3 x5 x4

/-- Where each array's block sits at step t: the three row-blocked inputs and the result at row block t, column
    block 0; the weights and the bias at block (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of the neighbour sums' block at step t is row 4000·t + p of the array. -/
theorem blk1_0 (c : Dev nD) (t : Fin cfg1.N) (p : Fin 4000) (k : Fin 128) (r : Fin 100000) (hr : r.val = t.val * 4000 + p.val) :
    (iblk1 V c 0 t : Vec Ideal S4000x128 .f32) (ix2 p k) = (V c main_v35 : S100000x128.Idx → EReal) (ix2 r k) := by
  obtain ⟨e0, e1, -⟩ := idx1 t
  unfold iblk1
  rw [View.read_apply]
  show V c main_v35 _ = V c main_v35 _
  congr 1
  funext a
  apply Fin.ext
  match a with
  | ⟨0, _⟩ => show win1_0.index t (0 : Fin 2) * 4000 + 1 * p.val = r.val; rw [e0, hr]; omega
  | ⟨1, _⟩ => show win1_0.index t (1 : Fin 2) * 128 + 1 * k.val = k.val; rw [e1]; omega

/-- Row p of the features' block at step t is row 4000·t + p of the array. -/
theorem blk1_1 (c : Dev nD) (t : Fin cfg1.N) (p : Fin 4000) (k : Fin 128) (r : Fin 100000) (hr : r.val = t.val * 4000 + p.val) :
    (iblk1 V c 1 t : Vec Ideal S4000x128 .f32) (ix2 p k) = (V c main_v25 : S100000x128.Idx → EReal) (ix2 r k) := by
  obtain ⟨-, -, e0, e1, -⟩ := idx1 t
  unfold iblk1
  rw [View.read_apply]
  show V c main_v25 _ = V c main_v25 _
  congr 1
  funext a
  apply Fin.ext
  match a with
  | ⟨0, _⟩ => show win1_1.index t (0 : Fin 2) * 4000 + 1 * p.val = r.val; rw [e0, hr]; omega
  | ⟨1, _⟩ => show win1_1.index t (1 : Fin 2) * 128 + 1 * k.val = k.val; rw [e1]; omega

/-- Row p of the factor column's block at step t is row 4000·t + p of the column. -/
theorem blk1_2 (c : Dev nD) (t : Fin cfg1.N) (p : Fin 4000) (r : Fin 100000) (hr : r.val = t.val * 4000 + p.val) :
    (iblk1 V c 2 t : Vec Ideal S4000x1 .f32) (ix2 p (0 : Fin 1)) = (V c main_v11 : S100000x1.Idx → EReal) (ix2 r (0 : Fin 1)) := by
  obtain ⟨-, -, -, -, e0, e1, -⟩ := idx1 t
  unfold iblk1
  rw [View.read_apply]
  show V c main_v11 _ = V c main_v11 _
  congr 1
  funext a
  apply Fin.ext
  match a with
  | ⟨0, _⟩ => show win1_2.index t (0 : Fin 2) * 4000 + 1 * p.val = r.val; rw [e0, hr]; omega
  | ⟨1, _⟩ => show win1_2.index t (1 : Fin 2) * 1 + 1 * 0 = 0; rw [e1]

/-- The left weights' block is the whole matrix at every step. -/
theorem blk1_3 (c : Dev nD) (t : Fin cfg1.N) : (iblk1 V c 3 t : Vec Ideal S128x128 .f32) = (V c main_v36 : S128x128.Idx → EReal) := by
  obtain ⟨-, -, -, -, -, -, e0, e1, -⟩ := idx1 t
  funext j
  unfold iblk1
  rw [View.read_apply]
  show V c main_v36 _ = V c main_v36 _
  congr 1
  funext a
  apply Fin.ext
  match a with
  | ⟨0, _⟩ => show win1_3.index t (0 : Fin 2) * 128 + 1 * (j 0).val = (j 0).val; rw [e0]; omega
  | ⟨1, _⟩ => show win1_3.index t (1 : Fin 2) * 128 + 1 * (j 1).val = (j 1).val; rw [e1]; omega

/-- The bias row's block is the whole row at every step. -/
theorem blk1_4 (c : Dev nD) (t : Fin cfg1.N) : (iblk1 V c 4 t : Vec Ideal S1x128 .f32) = (V c main_v38 : S1x128.Idx → EReal) := by
  obtain ⟨-, -, -, -, -, -, -, -, e0, e1, -⟩ := idx1 t
  funext j
  unfold iblk1
  rw [View.read_apply]
  show V c main_v38 _ = V c main_v38 _
  congr 1
  funext a
  apply Fin.ext
  match a with
  | ⟨0, _⟩ => show win1_4.index t (0 : Fin 2) * 1 + 1 * (j 0).val = (j 0).val; rw [e0]; omega
  | ⟨1, _⟩ => show win1_4.index t (1 : Fin 2) * 128 + 1 * (j 1).val = (j 1).val; rw [e1]; omega

/-- The right weights' block is the whole matrix at every step. -/
theorem blk1_5 (c : Dev nD) (t : Fin cfg1.N) : (iblk1 V c 5 t : Vec Ideal S128x128 .f32) = (V c main_v37 : S128x128.Idx → EReal) := by
  obtain ⟨-, -, -, -, -, -, -, -, -, -, e0, e1, -⟩ := idx1 t
  funext j
  unfold iblk1
  rw [View.read_apply]
  show V c main_v37 _ = V c main_v37 _
  congr 1
  funext a
  apply Fin.ext
  match a with
  | ⟨0, _⟩ => show win1_5.index t (0 : Fin 2) * 128 + 1 * (j 0).val = (j 0).val; rw [e0]; omega
  | ⟨1, _⟩ => show win1_5.index t (1 : Fin 2) * 128 + 1 * (j 1).val = (j 1).val; rw [e1]; omega

/-- WHAT STEP t WRITES BACK is rows 4000·t … 4000·t + 3999 of the rectified combined layer of the whole arrays. -/
theorem flushed1_eq (c : Dev nD) (t : Fin cfg1.N) :
    (dat1 (F := Ideal) V c).flushed 6 t = ((cfg1.win 6).blk t).view.read (Elt Ideal)
      (Cert.Sage.rect (Cert.Sage.combine (V c main_v35) (V c main_v25) (V c main_v11) (V c main_v36) (V c main_v38) (V c main_v37))) := by
  show (cfg1.win 6).cut (grid1.coords t) ((dat1 V c).after 6 t) = _
  rw [after1_6]
  unfold out1_6
  rw [View.canon_unit_zero Cert.Sage.Payload.zero_offsets]
  simp only [View.ld_unit_zero (S := S4000x128) Cert.Sage.Payload.zero_offsets, View.ld_unit_zero (S := S4000x1) Cert.Sage.Payload.zero_offsets,
    View.ld_unit_zero (S := S128x128) Cert.Sage.Payload.zero_offsets, View.ld_unit_zero (S := S1x128) Cert.Sage.Payload.zero_offsets]
  rw [pay1_eq, blk1_3 V c t, blk1_4 V c t, blk1_5 V c t]
  obtain ⟨-, -, -, -, -, -, -, -, -, -, -, -, e0, e1⟩ := idx1 t
  funext y
  have hy0 : (y 0).val < 4000 := (y 0).isLt
  have hy1 : (y 1).val < 128 := (y 1).isLt
  have ht : t.val < 25 := t.isLt
  have hL : ((cfg1.win 6).xinj (grid1.coords t) y : S4000x128.Idx) = ix2 (⟨(y 0).val, hy0⟩ : Fin 4000) (⟨(y 1).val, hy1⟩ : Fin 128) :=
    funext fun a => Fin.ext (by match a with | ⟨0, _⟩ => rfl | ⟨1, _⟩ => rfl)
  have hR : (((cfg1.win 6).blk t).view.emb y : S100000x128.Idx)
      = ix2 (⟨t.val * 4000 + (y 0).val, by omega⟩ : Fin 100000) (⟨(y 1).val, hy1⟩ : Fin 128) :=
    funext fun a => Fin.ext (by
      match a with
      | ⟨0, _⟩ => show win1_6.index t (0 : Fin 2) * 4000 + 1 * (y 0).val = t.val * 4000 + (y 0).val; rw [e0]; omega
      | ⟨1, _⟩ => show win1_6.index t (1 : Fin 2) * 128 + 1 * (y 1).val = (y 1).val; rw [e1]; omega)
  show Cert.Sage.rect _ ((cfg1.win 6).xinj (grid1.coords t) y) = Cert.Sage.rect _ (((cfg1.win 6).blk t).view.emb y)
  rw [hL, hR]
  exact Cert.Sage.Payload.rect_combine_rows _ _ _ _ _ _ _ _ _ _ _ _ (fun k => blk1_0 V c t _ k _ rfl) (fun k => blk1_1 V c t _ k _ rfl)
    (blk1_2 V c t _ _ rfl)

/-- An index of the result is in step t's block iff its row and column are in the block's ranges. -/
theorem mem_blk1 (t : Fin cfg1.N) (i : S100000x128.Idx) :
    i ∈ ((cfg1.win 6).blk t).view.set ↔ ∀ a : Fin 2, win1_6.index t a * S4000x128.size a ≤ (i a).val
      ∧ (i a).val < win1_6.index t a * S4000x128.size a + S4000x128.size a := by
  show i ∈ ((View.whole main_v39).slice (win1_6.rect t)).set ↔ _
  rw [View.set_slice_whole, Rect.mem_set_unit]
  exact Iff.rfl

/-- Every index of the result is in the block of the step its row falls in: row r in block r / 4000. -/
theorem cover1 (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have hN : (i 0).val / 4000 < cfg1.N := by rw [show cfg1.N = 25 from N_1]; omega
  obtain ⟨-, -, -, -, -, -, -, -, -, -, -, -, e0, e1⟩ := idx1 ⟨(i 0).val / 4000, hN⟩
  refine ⟨⟨(i 0).val / 4000, hN⟩, flush1_6 _, ?_⟩
  rw [mem_blk1]
  intro a
  match a with
  | ⟨0, _⟩ =>
    show win1_6.index ⟨(i 0).val / 4000, hN⟩ (0 : Fin 2) * 4000 ≤ (i 0).val
      ∧ (i 0).val < win1_6.index ⟨(i 0).val / 4000, hN⟩ (0 : Fin 2) * 4000 + 4000
    rw [e0]; show (i 0).val / 4000 * 4000 ≤ (i 0).val ∧ (i 0).val < (i 0).val / 4000 * 4000 + 4000; omega
  | ⟨1, _⟩ =>
    show win1_6.index ⟨(i 0).val / 4000, hN⟩ (1 : Fin 2) * 128 ≤ (i 1).val
      ∧ (i 1).val < win1_6.index ⟨(i 0).val / 4000, hN⟩ (1 : Fin 2) * 128 + 128
    rw [e1]; omega

/-- THE SECOND HIDDEN LAYER'S ARRAY after its 25 steps is the rectified combined layer of the arrays the steps read. -/
theorem region1 (c : Dev nD) : (dat1 (F := Ideal) V c).arrAt 6 cfg1.N
    = Cert.Sage.rect (Cert.Sage.combine (V c main_v35) (V c main_v25) (V c main_v11) (V c main_v36) (V c main_v38) (V c main_v37)) :=
  (dat1 V c).arrAt_eq_of_cover 6 _ (fun t _ => flushed1_eq V c t) cover1

end Cert.KernelIdeal.RegionValue

end
-- ==== Proof.Region2.lean ====
/-
  The output layer on the whole graph, from its row blocks.

  The layer is computed 4000 rows at a time, 25 times: at step t the program reads rows 4000·t … 4000·t + 3999 of the
  neighbour sums, of the second layer's features and of the per-row factor, reads the two weight matrices, the bias,
  the output weights and the output bias whole, combines the rows as the hidden layers do (without the rectifier),
  multiplies by the output weights, adds the output bias, and writes the same rows of the two-column result.  A row of the layer depends on the same row of those three
  arrays only, so what step t writes is rows 4000·t … 4000·t + 3999 of the layer of the WHOLE arrays; the 25 blocks
  tile the 100000 rows (row r lies in block r / 4000), so the array ends holding the layer of the whole arrays.
-/
import proofs.«104166_j58042188038363_2_alg».proof.Proof.Gen.KernelIdeal.Frame
import proofs.«104166_j58042188038363_2_alg».proof.Proof.LibGraphLayer
import proofs.«104166_j58042188038363_2_alg».proof.Proof.LibGraphLayerBlock
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- What one step computes from its blocks: the projected combined layer of the blocks. -/
theorem pay2_eq (x0 x1 : Vec Ideal S4000x128 .f32) (x2 : Vec Ideal S4000x1 .f32) (x3 : Vec Ideal S128x128 .f32)
    (x4 : Vec Ideal S1x128 .f32) (x5 : Vec Ideal S128x128 .f32) (x6 : Vec Ideal S128x2 .f32) (x7 : Vec Ideal S1x2 .f32) :
    k2_pay1 (F := Ideal) x0 x2 x1 x3 x5 x4 x6 x7 = Cert.Sage.project (Cert.Sage.combine x0 x1 x2 x3 x4 x5) x6 x7 := by
  unfold k2_pay1
  simp only [shapeCast_self]
  exact Cert.Sage.Payload.output_eq dot_S4000x128_S128x128_S4000x128_1_0_0_1_n_n rfl rfl rfl rfl rfl rfl
    dot_S4000x128_S128x2_S4000x2_1_0_0_1_n_n rfl rfl rfl rfl rfl rfl _ _ _ _ x0 x1 x2 x3 x5 x4 x6 x7

/-- Where each array's block sits at step t: the three row-blocked inputs and the result at row block t, column
    block 0; the weights and the biases at block (0, 0). -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-- Row p of the neighbour sums' block at step t is row 4000·t + p of the array. -/
theorem blk2_0 (c : Dev nD) (t : Fin cfg2.N) (p : Fin 4000) (k : Fin 128) (r : Fin 100000) (hr : r.val = t.val * 4000 + p.val) :
    (iblk2 V c 0 t : Vec Ideal S4000x128 .f32) (ix2 p k) = (V c main_v49 : S100000x128.Idx → EReal) (ix2 r k) := by
  obtain ⟨e0, e1, -⟩ := idx2 t
  unfold iblk2
  rw [View.read_apply]
  show V c main_v49 _ = V c main_v49 _
  congr 1
  funext a
  apply Fin.ext
  match a with
  | ⟨0, _⟩ => show win2_0.index t (0 : Fin 2) * 4000 + 1 * p.val = r.val; rw [e0, hr]; omega
  | ⟨1, _⟩ => show win2_0.index t (1 : Fin 2) * 128 + 1 * k.val = k.val; rw [e1]; omega

/-- Row p of the features' block at step t is row 4000·t + p of the array. -/
theorem blk2_1 (c : Dev nD) (t : Fin cfg2.N) (p : Fin 4000) (k : Fin 128) (r : Fin 100000) (hr : r.val = t.val * 4000 + p.val) :
    (iblk2 V c 1 t : Vec Ideal S4000x128 .f32) (ix2 p k) = (V c main_v39 : S100000x128.Idx → EReal) (ix2 r k) := by
  obtain ⟨-, -, e0, e1, -⟩ := idx2 t
  unfold iblk2
  rw [View.read_apply]
  show V c main_v39 _ = V c main_v39 _
  congr 1
  funext a
  apply Fin.ext
  match a with
  | ⟨0, _⟩ => show win2_1.index t (0 : Fin 2) * 4000 + 1 * p.val = r.val; rw [e0, hr]; omega
  | ⟨1, _⟩ => show win2_1.index t (1 : Fin 2) * 128 + 1 * k.val = k.val; rw [e1]; omega

/-- Row p of the factor column's block at step t is row 4000·t + p of the column. -/
theorem blk2_2 (c : Dev nD) (t : Fin cfg2.N) (p : Fin 4000) (r : Fin 100000) (hr : r.val = t.val * 4000 + p.val) :
    (iblk2 V c 2 t : Vec Ideal S4000x1 .f32) (ix2 p (0 : Fin 1)) = (V c main_v11 : S100000x1.Idx → EReal) (ix2 r (0 : Fin 1)) := by
  obtain ⟨-, -, -, -, e0, e1, -⟩ := idx2 t
  unfold iblk2
  rw [View.read_apply]
  show V c main_v11 _ = V c main_v11 _
  congr 1
  funext a
  apply Fin.ext
  match a with
  | ⟨0, _⟩ => show win2_2.index t (0 : Fin 2) * 4000 + 1 * p.val = r.val; rw [e0, hr]; omega
  | ⟨1, _⟩ => show win2_2.index t (1 : Fin 2) * 1 + 1 * 0 = 0; rw [e1]

/-- The left weights' block is the whole matrix at every step. -/
theorem blk2_3 (c : Dev nD) (t : Fin cfg2.N) : (iblk2 V c 3 t : Vec Ideal S128x128 .f32) = (V c main_v50 : S128x128.Idx → EReal) := by
  obtain ⟨-, -, -, -, -, -, e0, e1, -⟩ := idx2 t
  funext j
  unfold iblk2
  rw [View.read_apply]
  show V c main_v50 _ = V c main_v50 _
  congr 1
  funext a
  apply Fin.ext
  match a with
  | ⟨0, _⟩ => show win2_3.index t (0 : Fin 2) * 128 + 1 * (j 0).val = (j 0).val; rw [e0]; omega
  | ⟨1, _⟩ => show win2_3.index t (1 : Fin 2) * 128 + 1 * (j 1).val = (j 1).val; rw [e1]; omega

/-- The bias row's block is the whole row at every step. -/
theorem blk2_4 (c : Dev nD) (t : Fin cfg2.N) : (iblk2 V c 4 t : Vec Ideal S1x128 .f32) = (V c main_v52 : S1x128.Idx → EReal) := by
  obtain ⟨-, -, -, -, -, -, -, -, e0, e1, -⟩ := idx2 t
  funext j
  unfold iblk2
  rw [View.read_apply]
  show V c main_v52 _ = V c main_v52 _
  congr 1
  funext a
  apply Fin.ext
  match a with
  | ⟨0, _⟩ => show win2_4.index t (0 : Fin 2) * 1 + 1 * (j 0).val = (j 0).val; rw [e0]; omega
  | ⟨1, _⟩ => show win2_4.index t (1 : Fin 2) * 128 + 1 * (j 1).val = (j 1).val; rw [e1]; omega

/-- The right weights' block is the whole matrix at every step. -/
theorem blk2_5 (c : Dev nD) (t : Fin cfg2.N) : (iblk2 V c 5 t : Vec Ideal S128x128 .f32) = (V c main_v51 : S128x128.Idx → EReal) := by
  obtain ⟨-, -, -, -, -, -, -, -, -, -, e0, e1, -⟩ := idx2 t
  funext j
  unfold iblk2
  rw [View.read_apply]
  show V c main_v51 _ = V c main_v51 _
  congr 1
  funext a
  apply Fin.ext
  match a with
  | ⟨0, _⟩ => show win2_5.index t (0 : Fin 2) * 128 + 1 * (j 0).val = (j 0).val; rw [e0]; omega
  | ⟨1, _⟩ => show win2_5.index t (1 : Fin 2) * 128 + 1 * (j 1).val = (j 1).val; rw [e1]; omega

/-- The output weights' block is the whole matrix at every step. -/
theorem blk2_6 (c : Dev nD) (t : Fin cfg2.N) : (iblk2 V c 6 t : Vec Ideal S128x2 .f32) = (V c main_v53 : S128x2.Idx → EReal) := by
  obtain ⟨-, -, -, -, -, -, -, -, -, -, -, -, e0, e1, -⟩ := idx2 t
  funext j
  unfold iblk2
  rw [View.read_apply]
  show V c main_v53 _ = V c main_v53 _
  congr 1
  funext a
  apply Fin.ext
  match a with
  | ⟨0, _⟩ => show win2_6.index t (0 : Fin 2) * 128 + 1 * (j 0).val = (j 0).val; rw [e0]; omega
  | ⟨1, _⟩ => show win2_6.index t (1 : Fin 2) * 2 + 1 * (j 1).val = (j 1).val; rw [e1]; omega

/-- The output bias row's block is the whole row at every step. -/
theorem blk2_7 (c : Dev nD) (t : Fin cfg2.N) : (iblk2 V c 7 t : Vec Ideal S1x2 .f32) = (V c main_v54 : S1x2.Idx → EReal) := by
  obtain ⟨-, -, -, -, -, -, -, -, -, -, -, -, -, -, e0, e1, -⟩ := idx2 t
  funext j
  unfold iblk2
  rw [View.read_apply]
  show V c main_v54 _ = V c main_v54 _
  congr 1
  funext a
  apply Fin.ext
  match a with
  | ⟨0, _⟩ => show win2_7.index t (0 : Fin 2) * 1 + 1 * (j 0).val = (j 0).val; rw [e0]; omega
  | ⟨1, _⟩ => show win2_7.index t (1 : Fin 2) * 2 + 1 * (j 1).val = (j 1).val; rw [e1]; omega

/-- WHAT STEP t WRITES BACK is rows 4000·t … 4000·t + 3999 of the projected combined layer of the whole arrays. -/
theorem flushed2_eq (c : Dev nD) (t : Fin cfg2.N) :
    (dat2 (F := Ideal) V c).flushed 8 t = ((cfg2.win 8).blk t).view.read (Elt Ideal)
      (Cert.Sage.project (Cert.Sage.combine (V c main_v49) (V c main_v39) (V c main_v11) (V c main_v50) (V c main_v52) (V c main_v51)) (V c main_v53) (V c main_v54)) := by
  show (cfg2.win 8).cut (grid2.coords t) ((dat2 V c).after 8 t) = _
  rw [after2_8]
  unfold out2_8
  rw [View.canon_unit_zero Cert.Sage.Payload.zero_offsets]
  simp only [View.ld_unit_zero (S := S4000x128) Cert.Sage.Payload.zero_offsets, View.ld_unit_zero (S := S4000x1) Cert.Sage.Payload.zero_offsets,
    View.ld_unit_zero (S := S128x128) Cert.Sage.Payload.zero_offsets, View.ld_unit_zero (S := S1x128) Cert.Sage.Payload.zero_offsets,
    View.ld_unit_zero (S := S128x2) Cert.Sage.Payload.zero_offsets, View.ld_unit_zero (S := S1x2) Cert.Sage.Payload.zero_offsets]
  rw [pay2_eq, blk2_3 V c t, blk2_4 V c t, blk2_5 V c t, blk2_6 V c t, blk2_7 V c t]
  obtain ⟨-, -, -, -, -, -, -, -, -, -, -, -, -, -, -, -, e0, e1⟩ := idx2 t
  funext y
  have hy0 : (y 0).val < 4000 := (y 0).isLt
  have hy1 : (y 1).val < 2 := (y 1).isLt
  have ht : t.val < 25 := t.isLt
  have hL : ((cfg2.win 8).xinj (grid2.coords t) y : S4000x2.Idx) = ix2 (⟨(y 0).val, hy0⟩ : Fin 4000) (⟨(y 1).val, hy1⟩ : Fin 2) :=
    funext fun a => Fin.ext (by match a with | ⟨0, _⟩ => rfl | ⟨1, _⟩ => rfl)
  have hR : (((cfg2.win 8).blk t).view.emb y : S100000x2.Idx)
      = ix2 (⟨t.val * 4000 + (y 0).val, by omega⟩ : Fin 100000) (⟨(y 1).val, hy1⟩ : Fin 2) :=
    funext fun a => Fin.ext (by
      match a with
      | ⟨0, _⟩ => show win2_8.index t (0 : Fin 2) * 4000 + 1 * (y 0).val = t.val * 4000 + (y 0).val; rw [e0]; omega
      | ⟨1, _⟩ => show win2_8.index t (1 : Fin 2) * 2 + 1 * (y 1).val = (y 1).val; rw [e1]; omega)
  show Cert.Sage.project _ _ _ ((cfg2.win 8).xinj (grid2.coords t) y) = Cert.Sage.project _ _ _ (((cfg2.win 8).blk t).view.emb y)
  rw [hL, hR]
  exact Cert.Sage.Payload.project_combine_rows _ _ _ _ _ _ _ _ _ _ _ _ _ _ (fun k => blk2_0 V c t _ k _ rfl) (fun k => blk2_1 V c t _ k _ rfl)
    (blk2_2 V c t _ _ rfl)

/-- An index of the result is in step t's block iff its row and column are in the block's ranges. -/
theorem mem_blk2 (t : Fin cfg2.N) (i : S100000x2.Idx) :
    i ∈ ((cfg2.win 8).blk t).view.set ↔ ∀ a : Fin 2, win2_8.index t a * S4000x2.size a ≤ (i a).val
      ∧ (i a).val < win2_8.index t a * S4000x2.size a + S4000x2.size a := by
  show i ∈ ((View.whole main_v55).slice (win2_8.rect t)).set ↔ _
  rw [View.set_slice_whole, Rect.mem_set_unit]
  exact Iff.rfl

/-- Every index of the result is in the block of the step its row falls in: row r in block r / 4000. -/
theorem cover2 (i : S100000x2.Idx) : ∃ t : Fin cfg2.N, (cfg2.win 8).flush t = true ∧ i ∈ ((cfg2.win 8).blk t).view.set := by
  have hi0 : (i 0).val < 100000 := (i 0).isLt
  have hi1 : (i 1).val < 2 := (i 1).isLt
  have hN : (i 0).val / 4000 < cfg2.N := by rw [show cfg2.N = 25 from N_2]; omega
  obtain ⟨-, -, -, -, -, -, -, -, -, -, -, -, -, -, -, -, e0, e1⟩ := idx2 ⟨(i 0).val / 4000, hN⟩
  refine ⟨⟨(i 0).val / 4000, hN⟩, flush2_8 _, ?_⟩
  rw [mem_blk2]
  intro a
  match a with
  | ⟨0, _⟩ =>
    show win2_8.index ⟨(i 0).val / 4000, hN⟩ (0 : Fin 2) * 4000 ≤ (i 0).val
      ∧ (i 0).val < win2_8.index ⟨(i 0).val / 4000, hN⟩ (0 : Fin 2) * 4000 + 4000
    rw [e0]; show (i 0).val / 4000 * 4000 ≤ (i 0).val ∧ (i 0).val < (i 0).val / 4000 * 4000 + 4000; omega
  | ⟨1, _⟩ =>
    show win2_8.index ⟨(i 0).val / 4000, hN⟩ (1 : Fin 2) * 2 ≤ (i 1).val
      ∧ (i 1).val < win2_8.index ⟨(i 0).val / 4000, hN⟩ (1 : Fin 2) * 2 + 2
    rw [e1]; omega

/-- THE OUTPUT LAYER'S ARRAY after its 25 steps is the projected combined layer of the arrays the steps read. -/
theorem region2 (c : Dev nD) : (dat2 (F := Ideal) V c).arrAt 8 cfg2.N
    = Cert.Sage.project (Cert.Sage.combine (V c main_v49) (V c main_v39) (V c main_v11) (V c main_v50) (V c main_v52) (V c main_v51)) (V c main_v53) (V c main_v54) :=
  (dat2 V c).arrAt_eq_of_cover 8 _ (fun t _ => flushed2_eq V c t) cover2

end Cert.KernelIdeal.RegionValue

end
-- ==== Proof.KValue.lean ====
/-
  The idealized kernel's value: the result buffer after the run is the three-layer network of the launch memory.

  Region by region: the arrays a region reads are host functions of the launch memory and of the previous region's
  output; the region leaves, in its output array, one layer of the network applied to them.  Chaining the three
  gives the network; the run of the whole program then ends with the result buffer at that array.
-/
import proofs.«104166_j58042188038363_2_alg».proof.Proof.KHost
import proofs.«104166_j58042188038363_2_alg».proof.Proof.KRun
import proofs.«104166_j58042188038363_2_alg».proof.Proof.LibGraphLayer
import proofs.«104166_j58042188038363_2_alg».proof.Proof.Net
import proofs.«104166_j58042188038363_2_alg».proof.Proof.Region0
import proofs.«104166_j58042188038363_2_alg».proof.Proof.Region1
import proofs.«104166_j58042188038363_2_alg».proof.Proof.Region2

set_option maxRecDepth 16384

noncomputable section

namespace Cert.KernelIdeal.KValue

open Cert.KernelIdeal Cert.KernelIdeal.Gen Cert.KernelIdeal.HostSide
open Idealize.ShloMosaic Idealize.ShloMosaic.TcCoe Idealize.SL.Sem
open Cert.Sage

variable (m : (ℓ : Loc nD τ sig) → Buf (Elt Ideal) ℓ) (ρ : Dev nD → PrngReg)

/-- What the whole network computes from the launch memory of core c. -/
def network (c : Dev nD) : Mat 100000 2 :=
  layerOut (layerHid (layerIn (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7)))
    (m ((c : Thread nD τ).loc main_arg1)) (m ((c : Thread nD τ).loc main_arg8)) (m ((c : Thread nD τ).loc main_arg9)) (m ((c : Thread nD τ).loc main_arg10)) (m ((c : Thread nD τ).loc main_arg11)) (m ((c : Thread nD τ).loc main_arg12))

/-! ## What each region leaves in its output array -/

theorem out0 (c : Dev nD) : (dat0 (V1 m ρ) c).arrAt 6 cfg0.N = layerIn (m ((c : Thread nD τ).loc main_arg0)) (m ((c : Thread nD τ).loc main_arg1)) (m ((c : Thread nD τ).loc main_arg2)) (m ((c : Thread nD τ).loc main_arg3)) (m ((c : Thread nD τ).loc main_arg4)) := by
  rw [RegionValue.region0 (V1 m ρ) c]
  have h0 : V1 m ρ c main_v21 = _ := W1_v21 m ρ c
  have h1 : V1 m ρ c main_arg0 = _ := W1_arg0 m ρ c
  have h2 : V1 m ρ c main_v11 = _ := W1_v11 m ρ c
  have h3 : V1 m ρ c main_v22 = _ := W1_v22 m ρ c
  have h4 : V1 m ρ c main_v24 = _ := W1_v24 m ρ c
  have h5 : V1 m ρ c main_v23 = _ := W1_v23 m ρ c
  rw [h0, h1, h2, h3, h4, h5]
  rfl

theorem out1 (c : Dev nD) : (dat1 (V3 m ρ) c).arrAt 6 cfg1.N
    = layerHid (layerIn (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7)) := by
  rw [RegionValue.region1 (V3 m ρ) c]
  have h0 : V3 m ρ c main_v35 = _ := W3_v35 m ρ c
  have h1 : V3 m ρ c main_v25 = _ := W3_v25 m ρ c
  have h2 : V3 m ρ c main_v11 = _ := W3_v11 m ρ c
  have h3 : V3 m ρ c main_v36 = _ := W3_v36 m ρ c
  have h4 : V3 m ρ c main_v38 = _ := W3_v38 m ρ c
  have h5 : V3 m ρ c main_v37 = _ := W3_v37 m ρ c
  rw [h0, h1, h2, h3, h4, h5, out0 m ρ c]
  rfl

theorem out2 (c : Dev nD) : (dat2 (V5 m ρ) c).arrAt 8 cfg2.N = network m c := by
  rw [RegionValue.region2 (V5 m ρ) c]
  have h0 : V5 m ρ c main_v49 = _ := W5_v49 m ρ c
  have h1 : V5 m ρ c main_v39 = _ := W5_v39 m ρ c
  have h2 : V5 m ρ c main_v11 = _ := W5_v11 m ρ c
  have h3 : V5 m ρ c main_v50 = _ := W5_v50 m ρ c
  have h4 : V5 m ρ c main_v52 = _ := W5_v52 m ρ c
  have h5 : V5 m ρ c main_v51 = _ := W5_v51 m ρ c
  have h6 : V5 m ρ c main_v53 = _ := W5_v53 m ρ c
  have h7 : V5 m ρ c main_v54 = _ := W5_v54 m ρ c
  rw [h0, h1, h2, h3, h4, h5, h6, h7, out1 m ρ c]
  rfl

/-- The result buffer after the run is the network of the launch memory. -/
theorem result (c : Dev nD) : W6 m ρ c (Proc.devRef .tc main_v55) = network m c :=
  (W6_v55 m ρ c).trans (out2 m ρ c)

/-- THE KERNEL'S RUN: every weakly fair execution ends with the result buffer at the network of the launch memory
    and the arguments unchanged. -/
theorem run : θ_run defs (onTc (τ := τ) (main (F := Ideal))) ⟨m, fun _ => 0, ρ⟩ (fun r => ∀ c : Dev nD,
      r.2.mem ((c.tc : Thread nD τ).loc main_v55) = network m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (result m ρ c), (h c).2⟩)
    (Cert.KernelIdeal.ValueRun.run_result (F := Ideal) m ρ)

end Cert.KernelIdeal.KValue

end
-- ==== Proof.LibRowVector.lean ====
/-
  A vector laid along every row of a matrix, and a scalar repeated over an array, read at an entry, at any
  sizes.

  The array [M, N] whose entry (p, q) is v q has two spellings: the vector cast to the one-row matrix [1, N]
  and that row repeated M times, and the vector broadcast along its own axis to [1, N] and then along both
  axes to [M, N]. Either way the entry (p, q) is v q. A rank-0 array broadcast to any shape reads its one
  value everywhere.
-/
import Idealize.ShloMosaic.Lib.Pipeline.Value
import Idealize.ShloMosaic.Lib.ValueIdx
import Idealize.ShloMosaic.Lib.ValueLayout

noncomputable section

namespace Cert.LibRowVector

open Idealize.ShloMosaic Idealize.ShloMosaic.ValueIdx

variable {α : Type} {M N : ℕ}

/-- The vector cast to one row and the row repeated: entry (p, q) is v q. -/
theorem castRow_apply (v : (⟨1, ![N]⟩ : Shape).Idx → α) (h1 : (⟨1, ![N]⟩ : Shape).ShapeCasts ⟨2, ![1, N]⟩)
    (h2 : (⟨2, ![1, N]⟩ : Shape).Broadcasts ⟨2, ![M, N]⟩) (p : Fin M) (q : Fin N) :
    broadcastTo ⟨2, ![M, N]⟩ (shapeCast ⟨2, ![1, N]⟩ v h1) h2 (ix2 p q) = v (ix1 q) := by
  rw [broadcastTo_1b_ab_apply, shapeCast_a_1a_apply]

/-- The vector broadcast along its own axis to one row: entry (0, q) is v q. -/
theorem inDimOneRow_apply (v : (⟨1, ![N]⟩ : Shape).Idx → α)
    (h1 : (⟨1, ![N]⟩ : Shape).BroadcastsInDim ⟨2, ![1, N]⟩ ![1]) (u : Fin 1) (q : Fin N) :
    broadcastInDim ⟨2, ![1, N]⟩ ![1] h1 v (ix2 u q) = v (ix1 q) :=
  broadcastInDim_apply ![1] h1 v (ix2 u q) (ix1 q) (fun a => by
    match a with
    | ⟨0, _⟩ =>
      show q.val = if N = 1 then 0 else q.val
      split
      · have := q.isLt; omega
      · rfl)

/-- One row broadcast along both axes to M rows: entry (p, q) is the row's entry q. -/
theorem inDimRows_apply (w : (⟨2, ![1, N]⟩ : Shape).Idx → α)
    (h2 : (⟨2, ![1, N]⟩ : Shape).BroadcastsInDim ⟨2, ![M, N]⟩ ![0, 1]) (p : Fin M) (q : Fin N) :
    broadcastInDim ⟨2, ![M, N]⟩ ![0, 1] h2 w (ix2 p q) = w (ix2 (0 : Fin 1) q) :=
  broadcastInDim_apply ![0, 1] h2 w (ix2 p q) (ix2 (0 : Fin 1) q) (fun a => by
    match a with
    | ⟨0, _⟩ => show 0 = if (1 : ℕ) = 1 then 0 else p.val; rw [if_pos rfl]
    | ⟨1, _⟩ =>
      show q.val = if N = 1 then 0 else q.val
      split
      · have := q.isLt; omega
      · rfl)

/-- The vector broadcast to one row and the row to M rows: entry (p, q) is v q. -/
theorem inDimRow_apply (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 v) (ix2 p q) = v (ix1 q) := by
  rw [inDimRows_apply, inDimOneRow_apply]

/-- A rank-0 array broadcast to any shape reads its one value at every index. -/
theorem inDimScalar_apply {s : Shape} (x : (⟨0, ![]⟩ : Shape).Idx → α) (h : (⟨0, ![]⟩ : Shape).BroadcastsInDim s ![])
    (i : s.Idx) : broadcastInDim s ![] h x i = x ix0 :=
  broadcastInDim_apply ![] h x i ix0 (fun a => a.elim0)

end Cert.LibRowVector

end
-- ==== Proof.Bridge.lean ====
/-
  The two programs apply the same host functions.

  The edge rows, the index columns, the in-degree count, its clamp, the neighbour sums, the transposes and the
  one-row biases are spelt once in the kernel's program and once in the reference's.  The two spellings are the same
  operations with the same dimension numbers on the same shapes, so each pair is one function.  The only difference of
  form is a bias row: the kernel's program reshapes the vector to one row, the reference broadcasts it along a new
  leading axis; both put entry q of the vector at (0, q).
-/
import proofs.«104166_j58042188038363_2_alg».proof.Proof.KHost
import proofs.«104166_j58042188038363_2_alg».proof.Proof.Gen.ReferenceIdeal.Read
import proofs.«104166_j58042188038363_2_alg».proof.Proof.LibRowVector
import proofs.«104166_j58042188038363_2_alg».proof.Proof.LibRecip
import Idealize.ShloMosaic.Lib.ValueLayout

set_option maxRecDepth 16384

noncomputable section

namespace Cert.Bridge

open Idealize.ShloMosaic Idealize.ShloMosaic.TcCoe Idealize.ShloMosaic.ValueIdx
open Cert.KernelIdeal.HostSide
open Cert.ReferenceIdeal.Read

/-- Edge lists, as both programs type them. -/
abbrev Edges : Type := (⟨⟨2, ![2, 1600000]⟩, .i32⟩ : BufTy).Contents (Elt Ideal)

theorem src_eq (e : Edges) : src (F := Ideal) e = val_main_v1 (F := Ideal) e := rfl
theorem dst_eq (e : Edges) : dst (F := Ideal) e = val_main_v3 (F := Ideal) e := rfl
theorem srcIx_eq0 (e : Edges) : srcIx (F := Ideal) (val_main_v1 (F := Ideal) e) = val_main_v9 (F := Ideal) e := rfl
theorem srcIx_eq1 (e : Edges) : srcIx (F := Ideal) (val_main_v1 (F := Ideal) e) = val_main_v36 (F := Ideal) e := rfl
theorem srcIx_eq2 (e : Edges) : srcIx (F := Ideal) (val_main_v1 (F := Ideal) e) = val_main_v63 (F := Ideal) e := rfl
theorem dstIx_eq0 (e : Edges) : dstIx (F := Ideal) (val_main_v3 (F := Ideal) e) = val_main_v12 (F := Ideal) e := rfl
theorem dstIx_eq1 (e : Edges) : dstIx (F := Ideal) (val_main_v3 (F := Ideal) e) = val_main_v39 (F := Ideal) e := rfl
theorem dstIx_eq2 (e : Edges) : dstIx (F := Ideal) (val_main_v3 (F := Ideal) e) = val_main_v66 (F := Ideal) e := rfl
theorem clamped_eq0 (e : Edges) : clamped (F := Ideal) (val_main_v3 (F := Ideal) e) = val_main_v19 (F := Ideal) e := rfl
theorem clamped_eq1 (e : Edges) : clamped (F := Ideal) (val_main_v3 (F := Ideal) e) = val_main_v46 (F := Ideal) e := rfl
theorem clamped_eq2 (e : Edges) : clamped (F := Ideal) (val_main_v3 (F := Ideal) e) = val_main_v73 (F := Ideal) e := rfl

/-! ## The neighbour sums, the transposes, the bias rows, the per-node factor -/

theorem agg165_eq (x : (⟨⟨2, ![100000, 165]⟩, .f32⟩ : BufTy).Contents (Elt Ideal)) (e : Edges) :
    agg165 (F := Ideal) x (src (F := Ideal) e) (dst (F := Ideal) e) = val_main_v13 (F := Ideal) x e := rfl

/-- The reference's second-layer neighbour sum is the neighbour sum of its first layer's result. -/
theorem agg128_eq1 (x0 : (⟨⟨2, ![100000, 165]⟩, .f32⟩ : BufTy).Contents (Elt Ideal)) (x1 : Edges) (x2 : (⟨⟨2, ![128, 165]⟩, .f32⟩ : BufTy).Contents (Elt Ideal)) (x3 : (⟨⟨1, ![128]⟩, .f32⟩ : BufTy).Contents (Elt Ideal)) (x4 : (⟨⟨2, ![128, 165]⟩, .f32⟩ : BufTy).Contents (Elt Ideal)) :
    agg128 (F := Ideal) (val_main_v30 (F := Ideal) x0 x1 x2 x3 x4) (src (F := Ideal) x1) (dst (F := Ideal) x1)
      = val_main_v40 (F := Ideal) x0 x1 x2 x3 x4 := by
  unfold val_main_v40 val_main_v37
  generalize val_main_v30 (F := Ideal) x0 x1 x2 x3 x4 = h
  rfl

/-- The reference's third-layer neighbour sum is the neighbour sum of its second layer's result. -/
theorem agg128_eq2 (x0 : (⟨⟨2, ![100000, 165]⟩, .f32⟩ : BufTy).Contents (Elt Ideal)) (x1 : Edges) (x2 : (⟨⟨2, ![128, 165]⟩, .f32⟩ : BufTy).Contents (Elt Ideal)) (x3 : (⟨⟨1, ![128]⟩, .f32⟩ : BufTy).Contents (Elt Ideal)) (x4 : (⟨⟨2, ![128, 165]⟩, .f32⟩ : BufTy).Contents (Elt Ideal)) (x5 : (⟨⟨2, ![128, 128]⟩, .f32⟩ : BufTy).Contents (Elt Ideal)) (x6 : (⟨⟨1, ![128]⟩, .f32⟩ : BufTy).Contents (Elt Ideal)) (x7 : (⟨⟨2, ![128, 128]⟩, .f32⟩ : BufTy).Contents (Elt Ideal)) :
    agg128 (F := Ideal) (val_main_v57 (F := Ideal) x0 x1 x2 x3 x4 x5 x6 x7) (src (F := Ideal) x1) (dst (F := Ideal) x1)
      = val_main_v67 (F := Ideal) x0 x1 x2 x3 x4 x5 x6 x7 := by
  unfold val_main_v67 val_main_v64
  generalize val_main_v57 (F := Ideal) x0 x1 x2 x3 x4 x5 x6 x7 = h
  rfl

theorem tr165_eqL (w : (⟨⟨2, ![128, 165]⟩, .f32⟩ : BufTy).Contents (Elt Ideal)) : tr165 (F := Ideal) w = val_main_v22 (F := Ideal) w := rfl
theorem tr165_eqR (w : (⟨⟨2, ![128, 165]⟩, .f32⟩ : BufTy).Contents (Elt Ideal)) : tr165 (F := Ideal) w = val_main_v27 (F := Ideal) w := rfl
theorem tr128_eqL1 (w : (⟨⟨2, ![128, 128]⟩, .f32⟩ : BufTy).Contents (Elt Ideal)) : tr128 (F := Ideal) w = val_main_v49 (F := Ideal) w := rfl
theorem tr128_eqR1 (w : (⟨⟨2, ![128, 128]⟩, .f32⟩ : BufTy).Contents (Elt Ideal)) : tr128 (F := Ideal) w = val_main_v54 (F := Ideal) w := rfl
theorem tr128_eqL2 (w : (⟨⟨2, ![128, 128]⟩, .f32⟩ : BufTy).Contents (Elt Ideal)) : tr128 (F := Ideal) w = val_main_v76 (F := Ideal) w := rfl
theorem tr128_eqR2 (w : (⟨⟨2, ![128, 128]⟩, .f32⟩ : BufTy).Contents (Elt Ideal)) : tr128 (F := Ideal) w = val_main_v81 (F := Ideal) w := rfl
theorem trOut_eq (w : (⟨⟨2, ![2, 128]⟩, .f32⟩ : BufTy).Contents (Elt Ideal)) : trOut (F := Ideal) w = val_main_v84 (F := Ideal) w := rfl

/-- A vector reshaped to one row and the vector broadcast along a new leading axis are the same row. -/
theorem row_eq {n : ℕ} (b : (⟨1, ![n]⟩ : Shape).Idx → EReal) (h1 : (⟨1, ![n]⟩ : Shape).ShapeCasts ⟨2, ![1, n]⟩)
    (h2 : (⟨1, ![n]⟩ : Shape).BroadcastsInDim ⟨2, ![1, n]⟩ ![1]) :
    shapeCast ⟨2, ![1, n]⟩ b h1 = broadcastInDim ⟨2, ![1, n]⟩ ![1] h2 b := by
  funext i
  obtain ⟨u, q, rfl⟩ : ∃ (u : Fin 1) (q : Fin n), i = ix2 u q := ⟨i 0, i 1, eq_ix2 i⟩
  rw [shapeCast_a_1a_apply, Cert.LibRowVector.inDimOneRow_apply]

theorem row128_eq0 (b : (⟨⟨1, ![128]⟩, .f32⟩ : BufTy).Contents (Elt Ideal)) : row128 (F := Ideal) b = val_main_v24 (F := Ideal) b := row_eq b _ _
theorem row128_eq1 (b : (⟨⟨1, ![128]⟩, .f32⟩ : BufTy).Contents (Elt Ideal)) : row128 (F := Ideal) b = val_main_v51 (F := Ideal) b := row_eq b _ _
theorem row128_eq2 (b : (⟨⟨1, ![128]⟩, .f32⟩ : BufTy).Contents (Elt Ideal)) : row128 (F := Ideal) b = val_main_v78 (F := Ideal) b := row_eq b _ _
theorem row2_eq (b : (⟨⟨1, ![2]⟩, .f32⟩ : BufTy).Contents (Elt Ideal)) : row2 (F := Ideal) b = val_main_v86 (F := Ideal) b := row_eq b _ _

/-- The host's quotient of two arrays at an index is the quotient of their entries. -/
theorem hostDivf_at {s : Shape} (a b : FVec Ideal s .f32) (i : s.Idx) : Host.divf a b i = Ideal.div (a i) (b i) := rfl

/-- A scalar one spread over a column reads one everywhere. -/
theorem ones_at (h : (⟨0, ![]⟩ : Shape).BroadcastsInDim ⟨2, ![100000, 1]⟩ ![]) (i : (⟨2, ![100000, 1]⟩ : Shape).Idx) :
    broadcastInDim ⟨2, ![100000, 1]⟩ ![] h (constant (F := Ideal) ⟨0, ![]⟩ .f32 0x3F800000#32) i = (1 : EReal) := by
  rw [Cert.LibRowVector.inDimScalar_apply]
  exact Cert.LibRecip.one_f32

/-- The per-node factor is one over the clamped count, entry by entry. -/
theorem inv_apply (d : (⟨⟨1, ![1600000]⟩, .i32⟩ : BufTy).Contents (Elt Ideal)) (i : (⟨2, ![100000, 1]⟩ : Shape).Idx) :
    Cert.KernelIdeal.HostSide.inv (F := Ideal) d i = Ideal.div 1 (clamped (F := Ideal) d i) := by
  unfold Cert.KernelIdeal.HostSide.inv
  generalize clamped (F := Ideal) d = C
  refine (hostDivf_at _ C i).trans ?_
  rw [ones_at]

end Cert.Bridge

end
-- ==== Proof.RefLayers.lean ====
/-
  The reference network, layer by layer, as the entrywise graph-convolution law.

  Each hidden layer of the reference divides the neighbour sum by the clamped in-degree d p = max (count p) 1, multiplies
  by the neighbour weights, adds the bias, adds the product of the node's own features with the self weights, and
  rectifies.  Read at the entry (p, q) this is
      max (((∑ k, (A (p,k) / d p) · Wl (k,q)) + b q) + ∑ k, X (p,k) · Wr (k,q)) 0,
  and since d p ≥ 1 is not zero it equals the form that multiplies by the reciprocal 1 / d p and adds the bias last.
  The neighbour sum A and the count are results of data-dependent scatters and stay as they are: nothing below looks
  inside them.  The last layer has no rectifier and is followed by the output projection.
-/
import proofs.«104166_j58042188038363_2_alg».proof.Proof.Gen.ReferenceIdeal.Read
import proofs.«104166_j58042188038363_2_alg».proof.Proof.LibGraphLayer
import proofs.«104166_j58042188038363_2_alg».proof.Proof.LibRecip

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx

/-- The reciprocal of a column of divisors, entry by entry. -/
def recip (C : Cert.Sage.Mat 100000 1) : Cert.Sage.Mat 100000 1 := fun i => Ideal.div 1 (C i)

theorem layer0 (x0 : (⟨S100000x165, .f32⟩ : BufTy).Contents (Elt Ideal)) (x1 : (⟨S2x1600000, .i32⟩ : BufTy).Contents (Elt Ideal))
    (x2 : (⟨S128x165, .f32⟩ : BufTy).Contents (Elt Ideal)) (x3 : (⟨S128, .f32⟩ : BufTy).Contents (Elt Ideal))
    (x4 : (⟨S128x165, .f32⟩ : BufTy).Contents (Elt Ideal)) :
    val_main_v30 (F := Ideal) x0 x1 x2 x3 x4
      = Cert.Sage.rect (Cert.Sage.combine (val_main_v13 (F := Ideal) x0 x1) x0 (recip (val_main_v19 (F := Ideal) x1))
          (val_main_v22 (F := Ideal) x2) (val_main_v24 (F := Ideal) x3) (val_main_v27 (F := Ideal) x4)) := by
  funext i
  obtain ⟨p, q, rfl⟩ : ∃ (p : Fin 100000) (q : Fin 128), i = ix2 p q := ⟨i 0, i 1, eq_ix2 i⟩
  -- the divisor is a maximum with one
  have hd : (1 : EReal) ≤ val_main_v19 (F := Ideal) x1 (ix2 p (0 : Fin 1)) := by
    rw [val_main_v19_apply, val_main_v18_apply, val_main_cst_3_apply, Ideal.maximumf_def, Ideal.ofBits_def,
      Cert.LibRecip.one_f32]
    exact le_max_right _ _
  -- where each operand is read
  have e1 : ∀ k : Fin 165, lidx_main_v23 (ix2 p q) k = ix2 p k := fun k => funext fun a => Fin.ext (by
    match a with | ⟨0, _⟩ => rfl | ⟨1, _⟩ => rfl)
  have e2 : ∀ k : Fin 165, ridx_main_v23 (ix2 p q) k = ix2 k q := fun k => funext fun a => Fin.ext (by
    match a with | ⟨0, _⟩ => rfl | ⟨1, _⟩ => rfl)
  have e3 : ∀ k : Fin 165, lidx_main_v28 (ix2 p q) k = ix2 p k := fun k => funext fun a => Fin.ext (by
    match a with | ⟨0, _⟩ => rfl | ⟨1, _⟩ => rfl)
  have e4 : ∀ k : Fin 165, ridx_main_v28 (ix2 p q) k = ix2 k q := fun k => funext fun a => Fin.ext (by
    match a with | ⟨0, _⟩ => rfl | ⟨1, _⟩ => rfl)
  have e5 : idx_main_v25 (ix2 p q) = ix2 (0 : Fin 1) q := funext fun a => Fin.ext (by
    match a with | ⟨0, _⟩ => rfl | ⟨1, _⟩ => rfl)
  have e6 : ∀ k : Fin 165, idx_main_v20 (ix2 p k) = ix2 p (0 : Fin 1) := fun k => funext fun a => Fin.ext (by
    match a with | ⟨0, _⟩ => rfl | ⟨1, _⟩ => rfl)
  -- the quotient stage at an entry of row p
  have e21 : ∀ k : Fin 165, val_main_v21 (F := Ideal) x0 x1 (ix2 p k)
      = Ideal.div (val_main_v13 (F := Ideal) x0 x1 (ix2 p k)) (val_main_v19 (F := Ideal) x1 (ix2 p (0 : Fin 1))) := fun k => by
    rw [val_main_v21_apply, val_main_v20_apply, e6 k, Ideal.hostDivf_def]
  rw [Cert.Sage.rect_apply, Cert.Sage.combine_apply]
  rw [val_main_v30_apply, val_main_v29_apply, val_main_v26_apply, val_main_v23_apply, val_main_v28_apply, val_main_v25_apply,
    val_main_call0_v0_apply, val_main_call0_cst_apply]
  simp only [e1, e2, e3, e4, e5, e21, Ideal.maximumf_def, Ideal.addf_def, Ideal.ofBits_def, Ideal.ofBits_zero_f32]
  refine congrArg (fun t : EReal => max t 0) ?_
  exact (Cert.Sage.entry_join (fun k : Fin 165 => val_main_v13 (F := Ideal) x0 x1 (ix2 p k))
    (fun k : Fin 165 => val_main_v22 (F := Ideal) x2 (ix2 k q)) (fun k : Fin 165 => x0 (ix2 p k))
    (fun k : Fin 165 => val_main_v27 (F := Ideal) x4 (ix2 k q)) (val_main_v19 (F := Ideal) x1 (ix2 p (0 : Fin 1)))
    (val_main_v24 (F := Ideal) x3 (ix2 (0 : Fin 1) q)) hd).symm

theorem layer1 (x0 : (⟨S100000x165, .f32⟩ : BufTy).Contents (Elt Ideal)) (x1 : (⟨S2x1600000, .i32⟩ : BufTy).Contents (Elt Ideal))
    (x2 : (⟨S128x165, .f32⟩ : BufTy).Contents (Elt Ideal)) (x3 : (⟨S128, .f32⟩ : BufTy).Contents (Elt Ideal))
    (x4 : (⟨S128x165, .f32⟩ : BufTy).Contents (Elt Ideal)) (x5 : (⟨S128x128, .f32⟩ : BufTy).Contents (Elt Ideal))
    (x6 : (⟨S128, .f32⟩ : BufTy).Contents (Elt Ideal)) (x7 : (⟨S128x128, .f32⟩ : BufTy).Contents (Elt Ideal)) :
    val_main_v57 (F := Ideal) x0 x1 x2 x3 x4 x5 x6 x7
      = Cert.Sage.rect (Cert.Sage.combine (val_main_v40 (F := Ideal) x0 x1 x2 x3 x4) (val_main_v30 (F := Ideal) x0 x1 x2 x3 x4)
          (recip (val_main_v46 (F := Ideal) x1)) (val_main_v49 (F := Ideal) x5) (val_main_v51 (F := Ideal) x6)
          (val_main_v54 (F := Ideal) x7)) := by
  funext i
  obtain ⟨p, q, rfl⟩ : ∃ (p : Fin 100000) (q : Fin 128), i = ix2 p q := ⟨i 0, i 1, eq_ix2 i⟩
  -- the divisor is a maximum with one
  have hd : (1 : EReal) ≤ val_main_v46 (F := Ideal) x1 (ix2 p (0 : Fin 1)) := by
    rw [val_main_v46_apply, val_main_v45_apply, val_main_cst_9_apply, Ideal.maximumf_def, Ideal.ofBits_def,
      Cert.LibRecip.one_f32]
    exact le_max_right _ _
  -- where each operand is read
  have e1 : ∀ k : Fin 128, lidx_main_v50 (ix2 p q) k = ix2 p k := fun k => funext fun a => Fin.ext (by
    match a with | ⟨0, _⟩ => rfl | ⟨1, _⟩ => rfl)
  have e2 : ∀ k : Fin 128, ridx_main_v50 (ix2 p q) k = ix2 k q := fun k => funext fun a => Fin.ext (by
    match a with | ⟨0, _⟩ => rfl | ⟨1, _⟩ => rfl)
  have e3 : ∀ k : Fin 128, lidx_main_v55 (ix2 p q) k = ix2 p k := fun k => funext fun a => Fin.ext (by
    match a with | ⟨0, _⟩ => rfl | ⟨1, _⟩ => rfl)
  have e4 : ∀ k : Fin 128, ridx_main_v55 (ix2 p q) k = ix2 k q := fun k => funext fun a => Fin.ext (by
    match a with | ⟨0, _⟩ => rfl | ⟨1, _⟩ => rfl)
  have e5 : idx_main_v52 (ix2 p q) = ix2 (0 : Fin 1) q := funext fun a => Fin.ext (by
    match a with | ⟨0, _⟩ => rfl | ⟨1, _⟩ => rfl)
  have e6 : ∀ k : Fin 128, idx_main_v47 (ix2 p k) = ix2 p (0 : Fin 1) := fun k => funext fun a => Fin.ext (by
    match a with | ⟨0, _⟩ => rfl | ⟨1, _⟩ => rfl)
  -- the quotient stage at an entry of row p
  have e48 : ∀ k : Fin 128, val_main_v48 (F := Ideal) x0 x1 x2 x3 x4 (ix2 p k)
      = Ideal.div (val_main_v40 (F := Ideal) x0 x1 x2 x3 x4 (ix2 p k)) (val_main_v46 (F := Ideal) x1 (ix2 p (0 : Fin 1))) := fun k => by
    rw [val_main_v48_apply, val_main_v47_apply, e6 k, Ideal.hostDivf_def]
  rw [Cert.Sage.rect_apply, Cert.Sage.combine_apply]
  rw [val_main_v57_apply, val_main_v56_apply, val_main_v53_apply, val_main_v50_apply, val_main_v55_apply, val_main_v52_apply,
    val_main_call1_v0_apply, val_main_call1_cst_apply]
  simp only [e1, e2, e3, e4, e5, e48, Ideal.maximumf_def, Ideal.addf_def, Ideal.ofBits_def, Ideal.ofBits_zero_f32]
  -- the previous layer's result and the scatter stages enter only as arrays
  generalize val_main_v30 (F := Ideal) x0 x1 x2 x3 x4 = X
  generalize val_main_v40 (F := Ideal) x0 x1 x2 x3 x4 = A
  generalize val_main_v46 (F := Ideal) x1 = C at hd ⊢
  refine congrArg (fun t : EReal => max t 0) ?_
  exact (Cert.Sage.entry_join (fun k : Fin 128 => A (ix2 p k))
    (fun k : Fin 128 => val_main_v49 (F := Ideal) x5 (ix2 k q)) (fun k : Fin 128 => X (ix2 p k))
    (fun k : Fin 128 => val_main_v54 (F := Ideal) x7 (ix2 k q)) (C (ix2 p (0 : Fin 1)))
    (val_main_v51 (F := Ideal) x6 (ix2 (0 : Fin 1) q)) hd).symm

/-- The last layer before the projection: the same law without the rectifier. -/
theorem layer2_pre (x0 : (⟨S100000x165, .f32⟩ : BufTy).Contents (Elt Ideal)) (x1 : (⟨S2x1600000, .i32⟩ : BufTy).Contents (Elt Ideal))
    (x2 : (⟨S128x165, .f32⟩ : BufTy).Contents (Elt Ideal)) (x3 : (⟨S128, .f32⟩ : BufTy).Contents (Elt Ideal))
    (x4 : (⟨S128x165, .f32⟩ : BufTy).Contents (Elt Ideal)) (x5 : (⟨S128x128, .f32⟩ : BufTy).Contents (Elt Ideal))
    (x6 : (⟨S128, .f32⟩ : BufTy).Contents (Elt Ideal)) (x7 : (⟨S128x128, .f32⟩ : BufTy).Contents (Elt Ideal)) (x8 : (⟨S128x128, .f32⟩ : BufTy).Contents (Elt Ideal))
    (x9 : (⟨S128, .f32⟩ : BufTy).Contents (Elt Ideal)) (x10 : (⟨S128x128, .f32⟩ : BufTy).Contents (Elt Ideal)) :
    val_main_v83 (F := Ideal) x0 x1 x2 x3 x4 x5 x6 x7 x8 x9 x10
      = Cert.Sage.combine (val_main_v67 (F := Ideal) x0 x1 x2 x3 x4 x5 x6 x7) (val_main_v57 (F := Ideal) x0 x1 x2 x3 x4 x5 x6 x7)
          (recip (val_main_v73 (F := Ideal) x1)) (val_main_v76 (F := Ideal) x8) (val_main_v78 (F := Ideal) x9)
          (val_main_v81 (F := Ideal) x10) := by
  funext i
  obtain ⟨p, q, rfl⟩ : ∃ (p : Fin 100000) (q : Fin 128), i = ix2 p q := ⟨i 0, i 1, eq_ix2 i⟩
  -- the divisor is a maximum with one
  have hd : (1 : EReal) ≤ val_main_v73 (F := Ideal) x1 (ix2 p (0 : Fin 1)) := by
    rw [val_main_v73_apply, val_main_v72_apply, val_main_cst_15_apply, Ideal.maximumf_def, Ideal.ofBits_def,
      Cert.LibRecip.one_f32]
    exact le_max_right _ _
  -- where each operand is read
  have e1 : ∀ k : Fin 128, lidx_main_v77 (ix2 p q) k = ix2 p k := fun k => funext fun a => Fin.ext (by
    match a with | ⟨0, _⟩ => rfl | ⟨1, _⟩ => rfl)
  have e2 : ∀ k : Fin 128, ridx_main_v77 (ix2 p q) k = ix2 k q := fun k => funext fun a => Fin.ext (by
    match a with | ⟨0, _⟩ => rfl | ⟨1, _⟩ => rfl)
  have e3 : ∀ k : Fin 128, lidx_main_v82 (ix2 p q) k = ix2 p k := fun k => funext fun a => Fin.ext (by
    match a with | ⟨0, _⟩ => rfl | ⟨1, _⟩ => rfl)
  have e4 : ∀ k : Fin 128, ridx_main_v82 (ix2 p q) k = ix2 k q := fun k => funext fun a => Fin.ext (by
    match a with | ⟨0, _⟩ => rfl | ⟨1, _⟩ => rfl)
  have e5 : idx_main_v79 (ix2 p q) = ix2 (0 : Fin 1) q := funext fun a => Fin.ext (by
    match a with | ⟨0, _⟩ => rfl | ⟨1, _⟩ => rfl)
  have e6 : ∀ k : Fin 128, idx_main_v74 (ix2 p k) = ix2 p (0 : Fin 1) := fun k => funext fun a => Fin.ext (by
    match a with | ⟨0, _⟩ => rfl | ⟨1, _⟩ => rfl)
  -- the quotient stage at an entry of row p
  have e75 : ∀ k : Fin 128, val_main_v75 (F := Ideal) x0 x1 x2 x3 x4 x5 x6 x7 (ix2 p k)
      = Ideal.div (val_main_v67 (F := Ideal) x0 x1 x2 x3 x4 x5 x6 x7 (ix2 p k)) (val_main_v73 (F := Ideal) x1 (ix2 p (0 : Fin 1))) := fun k => by
    rw [val_main_v75_apply, val_main_v74_apply, e6 k, Ideal.hostDivf_def]
  rw [Cert.Sage.combine_apply]
  rw [val_main_v83_apply, val_main_v80_apply, val_main_v77_apply, val_main_v82_apply, val_main_v79_apply]
  simp only [e1, e2, e3, e4, e5, e75, Ideal.addf_def]
  -- the previous layer's result and the scatter stages enter only as arrays
  generalize val_main_v57 (F := Ideal) x0 x1 x2 x3 x4 x5 x6 x7 = X
  generalize val_main_v67 (F := Ideal) x0 x1 x2 x3 x4 x5 x6 x7 = A
  generalize val_main_v73 (F := Ideal) x1 = C at hd ⊢
  exact (Cert.Sage.entry_join (fun k : Fin 128 => A (ix2 p k))
    (fun k : Fin 128 => val_main_v76 (F := Ideal) x8 (ix2 k q)) (fun k : Fin 128 => X (ix2 p k))
    (fun k : Fin 128 => val_main_v81 (F := Ideal) x10 (ix2 k q)) (C (ix2 p (0 : Fin 1)))
    (val_main_v78 (F := Ideal) x9 (ix2 (0 : Fin 1) q)) hd).symm

theorem layer2 (x0 : (⟨S100000x165, .f32⟩ : BufTy).Contents (Elt Ideal)) (x1 : (⟨S2x1600000, .i32⟩ : BufTy).Contents (Elt Ideal))
    (x2 : (⟨S128x165, .f32⟩ : BufTy).Contents (Elt Ideal)) (x3 : (⟨S128, .f32⟩ : BufTy).Contents (Elt Ideal))
    (x4 : (⟨S128x165, .f32⟩ : BufTy).Contents (Elt Ideal)) (x5 : (⟨S128x128, .f32⟩ : BufTy).Contents (Elt Ideal))
    (x6 : (⟨S128, .f32⟩ : BufTy).Contents (Elt Ideal)) (x7 : (⟨S128x128, .f32⟩ : BufTy).Contents (Elt Ideal)) (x8 : (⟨S128x128, .f32⟩ : BufTy).Contents (Elt Ideal))
    (x9 : (⟨S128, .f32⟩ : BufTy).Contents (Elt Ideal)) (x10 : (⟨S128x128, .f32⟩ : BufTy).Contents (Elt Ideal)) (x11 : (⟨S2x128, .f32⟩ : BufTy).Contents (Elt Ideal))
    (x12 : (⟨S2, .f32⟩ : BufTy).Contents (Elt Ideal)) :
    val_main_v88 (F := Ideal) x0 x1 x2 x3 x4 x5 x6 x7 x8 x9 x10 x11 x12
      = Cert.Sage.project (Cert.Sage.combine (val_main_v67 (F := Ideal) x0 x1 x2 x3 x4 x5 x6 x7) (val_main_v57 (F := Ideal) x0 x1 x2 x3 x4 x5 x6 x7)
          (recip (val_main_v73 (F := Ideal) x1)) (val_main_v76 (F := Ideal) x8) (val_main_v78 (F := Ideal) x9)
          (val_main_v81 (F := Ideal) x10)) (val_main_v84 (F := Ideal) x11) (val_main_v86 (F := Ideal) x12) := by
  funext i
  obtain ⟨p, q, rfl⟩ : ∃ (p : Fin 100000) (q : Fin 2), i = ix2 p q := ⟨i 0, i 1, eq_ix2 i⟩
  -- where each operand is read
  have e1 : ∀ k : Fin 128, lidx_main_v85 (ix2 p q) k = ix2 p k := fun k => funext fun a => Fin.ext (by
    match a with | ⟨0, _⟩ => rfl | ⟨1, _⟩ => rfl)
  have e2 : ∀ k : Fin 128, ridx_main_v85 (ix2 p q) k = ix2 k q := fun k => funext fun a => Fin.ext (by
    match a with | ⟨0, _⟩ => rfl | ⟨1, _⟩ => rfl)
  have e3 : idx_main_v87 (ix2 p q) = ix2 (0 : Fin 1) q := funext fun a => Fin.ext (by
    match a with | ⟨0, _⟩ => rfl | ⟨1, _⟩ => rfl)
  rw [Cert.Sage.project_apply, val_main_v88_apply, val_main_v85_apply, val_main_v87_apply]
  simp only [e1, e2, e3, Ideal.addf_def]
  rw [layer2_pre x0 x1 x2 x3 x4 x5 x6 x7 x8 x9 x10]

end Cert.ReferenceIdeal.RefValue

end
-- ==== Proof.NetEq.lean ====
/-
  The kernel's network is the reference's function of the arguments.

  Layer by layer: the reference's layer, read entry by entry, is the combine of its own neighbour sum, input, clamped
  count, transposed weights and bias row; each of those is the kernel program's host function of the same arrays;
  and the previous layers agree.  So the reference's last stage, as a function of the thirteen arguments, is the
  kernel's network of them.
-/
import proofs.«104166_j58042188038363_2_alg».proof.Proof.Net
import proofs.«104166_j58042188038363_2_alg».proof.Proof.Bridge
import proofs.«104166_j58042188038363_2_alg».proof.Proof.RefLayers

set_option maxRecDepth 16384

noncomputable section

namespace Cert.Bridge

open Idealize.ShloMosaic Idealize.ShloMosaic.TcCoe Idealize.ShloMosaic.ValueIdx
open Cert.KernelIdeal.HostSide Cert.KernelIdeal.KValue
open Cert.ReferenceIdeal.Read Cert.ReferenceIdeal.RefValue

/-- The per-node factor is the reciprocal of the reference's clamped count, at each of its three layers. -/
theorem inv_eq0 (e : Edges) : Cert.KernelIdeal.HostSide.inv (F := Ideal) (dst (F := Ideal) e) = recip (val_main_v19 (F := Ideal) e) :=
  funext fun i => (inv_apply _ i).trans (by rw [dst_eq, clamped_eq0]; rfl)
theorem inv_eq1 (e : Edges) : Cert.KernelIdeal.HostSide.inv (F := Ideal) (dst (F := Ideal) e) = recip (val_main_v46 (F := Ideal) e) :=
  funext fun i => (inv_apply _ i).trans (by rw [dst_eq, clamped_eq1]; rfl)
theorem inv_eq2 (e : Edges) : Cert.KernelIdeal.HostSide.inv (F := Ideal) (dst (F := Ideal) e) = recip (val_main_v73 (F := Ideal) e) :=
  funext fun i => (inv_apply _ i).trans (by rw [dst_eq, clamped_eq2]; rfl)

theorem layerIn_eq (x0 : (⟨⟨2, ![100000, 165]⟩, .f32⟩ : BufTy).Contents (Elt Ideal)) (x1 : Edges) (x2 : (⟨⟨2, ![128, 165]⟩, .f32⟩ : BufTy).Contents (Elt Ideal)) (x3 : (⟨⟨1, ![128]⟩, .f32⟩ : BufTy).Contents (Elt Ideal)) (x4 : (⟨⟨2, ![128, 165]⟩, .f32⟩ : BufTy).Contents (Elt Ideal)) :
    layerIn x0 x1 x2 x3 x4 = val_main_v30 (F := Ideal) x0 x1 x2 x3 x4 := by
  rw [layer0]
  unfold layerIn
  rw [agg165_eq, inv_eq0, tr165_eqL x2, tr165_eqR x4, row128_eq0]

theorem layerHid_eq (x0 : (⟨⟨2, ![100000, 165]⟩, .f32⟩ : BufTy).Contents (Elt Ideal)) (x1 : Edges) (x2 : (⟨⟨2, ![128, 165]⟩, .f32⟩ : BufTy).Contents (Elt Ideal)) (x3 : (⟨⟨1, ![128]⟩, .f32⟩ : BufTy).Contents (Elt Ideal)) (x4 : (⟨⟨2, ![128, 165]⟩, .f32⟩ : BufTy).Contents (Elt Ideal)) (x5 : (⟨⟨2, ![128, 128]⟩, .f32⟩ : BufTy).Contents (Elt Ideal)) (x6 : (⟨⟨1, ![128]⟩, .f32⟩ : BufTy).Contents (Elt Ideal)) (x7 : (⟨⟨2, ![128, 128]⟩, .f32⟩ : BufTy).Contents (Elt Ideal)) :
    layerHid (val_main_v30 (F := Ideal) x0 x1 x2 x3 x4) x1 x5 x6 x7 = val_main_v57 (F := Ideal) x0 x1 x2 x3 x4 x5 x6 x7 := by
  rw [layer1]
  unfold layerHid
  rw [agg128_eq1, inv_eq1, tr128_eqL1 x5, tr128_eqR1 x7, row128_eq1]

theorem layerOut_eq (x0 : (⟨⟨2, ![100000, 165]⟩, .f32⟩ : BufTy).Contents (Elt Ideal)) (x1 : Edges) (x2 : (⟨⟨2, ![128, 165]⟩, .f32⟩ : BufTy).Contents (Elt Ideal)) (x3 : (⟨⟨1, ![128]⟩, .f32⟩ : BufTy).Contents (Elt Ideal)) (x4 : (⟨⟨2, ![128, 165]⟩, .f32⟩ : BufTy).Contents (Elt Ideal)) (x5 : (⟨⟨2, ![128, 128]⟩, .f32⟩ : BufTy).Contents (Elt Ideal)) (x6 : (⟨⟨1, ![128]⟩, .f32⟩ : BufTy).Contents (Elt Ideal)) (x7 : (⟨⟨2, ![128, 128]⟩, .f32⟩ : BufTy).Contents (Elt Ideal)) (x8 : (⟨⟨2, ![128, 128]⟩, .f32⟩ : BufTy).Contents (Elt Ideal)) (x9 : (⟨⟨1, ![128]⟩, .f32⟩ : BufTy).Contents (Elt Ideal)) (x10 : (⟨⟨2, ![128, 128]⟩, .f32⟩ : BufTy).Contents (Elt Ideal)) (x11 : (⟨⟨2, ![2, 128]⟩, .f32⟩ : BufTy).Contents (Elt Ideal)) (x12 : (⟨⟨1, ![2]⟩, .f32⟩ : BufTy).Contents (Elt Ideal)) :
    layerOut (val_main_v57 (F := Ideal) x0 x1 x2 x3 x4 x5 x6 x7) x1 x8 x9 x10 x11 x12
      = val_main_v88 (F := Ideal) x0 x1 x2 x3 x4 x5 x6 x7 x8 x9 x10 x11 x12 := by
  rw [layer2]
  unfold layerOut
  rw [agg128_eq2, inv_eq2, tr128_eqL2 x8, tr128_eqR2 x10, row128_eq2, trOut_eq, row2_eq]

/-- THE TWO PROGRAMS COMPUTE ONE FUNCTION of the thirteen arguments. -/
theorem network_eq (x0 : (⟨⟨2, ![100000, 165]⟩, .f32⟩ : BufTy).Contents (Elt Ideal)) (x1 : Edges) (x2 : (⟨⟨2, ![128, 165]⟩, .f32⟩ : BufTy).Contents (Elt Ideal)) (x3 : (⟨⟨1, ![128]⟩, .f32⟩ : BufTy).Contents (Elt Ideal)) (x4 : (⟨⟨2, ![128, 165]⟩, .f32⟩ : BufTy).Contents (Elt Ideal)) (x5 : (⟨⟨2, ![128, 128]⟩, .f32⟩ : BufTy).Contents (Elt Ideal)) (x6 : (⟨⟨1, ![128]⟩, .f32⟩ : BufTy).Contents (Elt Ideal)) (x7 : (⟨⟨2, ![128, 128]⟩, .f32⟩ : BufTy).Contents (Elt Ideal)) (x8 : (⟨⟨2, ![128, 128]⟩, .f32⟩ : BufTy).Contents (Elt Ideal)) (x9 : (⟨⟨1, ![128]⟩, .f32⟩ : BufTy).Contents (Elt Ideal)) (x10 : (⟨⟨2, ![128, 128]⟩, .f32⟩ : BufTy).Contents (Elt Ideal)) (x11 : (⟨⟨2, ![2, 128]⟩, .f32⟩ : BufTy).Contents (Elt Ideal)) (x12 : (⟨⟨1, ![2]⟩, .f32⟩ : BufTy).Contents (Elt Ideal)) :
    layerOut (layerHid (layerIn x0 x1 x2 x3 x4) x1 x5 x6 x7) x1 x8 x9 x10 x11 x12
      = val_main_v88 (F := Ideal) x0 x1 x2 x3 x4 x5 x6 x7 x8 x9 x10 x11 x12 := by
  rw [layerIn_eq, layerHid_eq, layerOut_eq]

end Cert.Bridge

end
-- ==== Proof.lean ====
/-
  A three-layer graph network (two rectified hidden layers of 128 features and an output projection to 2) over 100000
  nodes and 1600000 edges: the kernel's program against the plain reference, as extended reals.

  Every layer takes, for each node, the mean of its in-neighbours' features and the node's own features through two
  weight matrices and a bias.  Both programs form the neighbour sums and the in-degree count by the same host gather
  and scatter-add over the edge list.  The kernel's program computes the reciprocal of the count clamped below by one
  once on the host and, in each of its three gridded regions (25 blocks of 4000 rows), multiplies the neighbour sum by
  it, forms the two products, adds them, adds the bias last, and rectifies (the last region adds no rectifier and
  projects to the two outputs).  The reference divides the neighbour sum by the clamped count, adds the bias after the
  first product and the second product after that.  Entry by entry the two are one function: the clamped count is at
  least one, so multiplying by its reciprocal is dividing by it, and sums of extended reals may be reordered.  No
  input needs to be finite for this.

  The three frame claims are the generated frames (the reference's is its generated run with the result dropped);
  the idealization rewrote nothing, so it is preserved trivially.
-/
import proofs.«104166_j58042188038363_2_alg».proof.Defs
import proofs.«104166_j58042188038363_2_alg».proof.Proof.Gen.Kernel
import proofs.«104166_j58042188038363_2_alg».proof.Proof.Gen.Kernel.Skeleton
import proofs.«104166_j58042188038363_2_alg».proof.Proof.Gen.Kernel.Launch
import proofs.«104166_j58042188038363_2_alg».proof.Proof.Gen.Kernel.Points
import proofs.«104166_j58042188038363_2_alg».proof.Proof.Gen.Kernel.Frame
import proofs.«104166_j58042188038363_2_alg».proof.Proof.Gen.KernelIdeal
import proofs.«104166_j58042188038363_2_alg».proof.Proof.Gen.KernelIdeal.Skeleton
import proofs.«104166_j58042188038363_2_alg».proof.Proof.Gen.KernelIdeal.Launch
import proofs.«104166_j58042188038363_2_alg».proof.Proof.Gen.KernelIdeal.Points
import proofs.«104166_j58042188038363_2_alg».proof.Proof.Gen.KernelIdeal.Frame
import proofs.«104166_j58042188038363_2_alg».proof.Proof.Gen.ReferenceIdeal
import proofs.«104166_j58042188038363_2_alg».proof.Proof.Gen.Pre_finite_inputs
import proofs.«104166_j58042188038363_2_alg».proof.Proof.Gen.ReferenceIdeal.Run
import proofs.«104166_j58042188038363_2_alg».proof.Proof.Gen.ReferenceIdeal.Read
import proofs.«104166_j58042188038363_2_alg».proof.Proof.KValue
import proofs.«104166_j58042188038363_2_alg».proof.Proof.NetEq
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The reference's result, from a memory that agrees with the kernel's on the thirteen arguments, is the kernel's
    network of its own launch memory. -/
theorem ref_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.Value.res_main_v88 (F := Ideal) m' c = Cert.KernelIdeal.KValue.network m c := by
  rw [Cert.ReferenceIdeal.Read.val_main_v88_eq, h0, h1, h2, h3, h4, h5, h6, h7, h8, h9, h10, h11, h12]
  exact (Cert.Bridge.network_eq _ _ _ _ _ _ _ _ _ _ _ _ _).symm

/-- From memories that agree on the arguments both programs run, and end with the same result: the network of
    the arguments. -/
theorem algebraic : Cert.algebraic_KernelIdeal_ReferenceIdeal := by
  intro m ρ m' ρ' _ hagree
  refine ⟨fun c => Cert.KernelIdeal.KValue.network m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  exact ref_result m m' c a0 a1 a2 a3 a4 a5 a6 a7 a8 a9 a10 a11 a12

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
